-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v254)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v254) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S5x128x128 : Shape := ⟨3, ![5, 128, 128]⟩
abbrev S128 : Shape := ⟨1, ![128]⟩
abbrev S5x128x16 : Shape := ⟨3, ![5, 128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S128 : S_.BroadcastsInDim S128 (![] : Fin 0 → Fin S128.rank)
  reducesTo_S128_S_d0 : S128.ReducesTo [0] S_
  bcast_S_S5x128x16 : S_.BroadcastsInDim S5x128x16 (![] : Fin 0 → Fin S5x128x16.rank)
  reducesTo_S5x128x16_S_d0_1_2 : S5x128x16.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg7 : FVec F S128 .f32) (main_arg8 : FVec F S5x128x16 .f32) (main_arg9 : FVec F S16 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S5x128x16 .f32 := Host.absf main_arg8
  let main_cst_8 : FVec F S_ .f32 := constant S_ .f32 0x7F800000#32
  let main_v25 : FVec F S5x128x16 .f32 := broadcastInDim S5x128x16 ![] bcast_S_S5x128x16 main_cst_8
  let main_v26 : IVec S5x128x16 1 := cmpf .olt main_v24 main_v25
  let main_c_9 : IVec S_ 1 := constantI S_ 1 1#1
  let main_v27 : IVec S_ 1 := (fun x v => Host.reduce IntOp.andi x v reducesTo_S5x128x16_S_d0_1_2 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : IVec S50000 32) (main_arg4 : FVec F S5x128x128 .f32) (main_arg5 : FVec F S128 .f32) (main_arg6 : FVec F S5x128x128 .f32) (main_arg7 : FVec F S128 .f32) (main_arg8 : FVec F S5x128x16 .f32) (main_arg9 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg4
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S5x128x128 .f32 := Host.absf main_arg6
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg7 main_arg8 main_arg9 main_v13 main_v16
-- ==== Kernel.lean ====
abbrev S50000x128 : Shape := ⟨2, ![50000, 128]⟩
abbrev S800000 : Shape := ⟨1, ![800000]⟩
abbrev S50000 : Shape := ⟨1, ![50000]⟩
abbrev S5x128x128 : Shape := ⟨3, ![5, 128, 128]⟩
abbrev S128 : Shape := ⟨1, ![128]⟩
abbrev S5x128x16 : Shape := ⟨3, ![5, 128, 16]⟩
abbrev S16 : Shape := ⟨1, ![16]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S2000x128 : Shape := ⟨2, ![2000, 128]⟩
abbrev S1x128 : Shape := ⟨2, ![1, 128]⟩
abbrev S1x128x16 : Shape := ⟨3, ![1, 128, 16]⟩
abbrev S128x16 : Shape := ⟨2, ![128, 16]⟩
abbrev S50000x16 : Shape := ⟨2, ![50000, 16]⟩
abbrev S2000x16 : Shape := ⟨2, ![2000, 16]⟩
abbrev S1x16 : Shape := ⟨2, ![1, 16]⟩
abbrev S64x16 : Shape := ⟨2, ![64, 16]⟩
abbrev S50000x1 : Shape := ⟨2, ![50000, 1]⟩
abbrev S64 : Shape := ⟨1, ![64]⟩
abbrev S64x1 : Shape := ⟨2, ![64, 1]⟩

abbrev nBuf : Space → Nat
  | .hbm => 339
  | .vmem => 54
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S5x128x128, .f32⟩
  | 5 => ⟨S128, .f32⟩
  | 6 => ⟨S5x128x128, .f32⟩
  | 7 => ⟨S128, .f32⟩
  | 8 => ⟨S5x128x16, .f32⟩
  | 9 => ⟨S16, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S800000x1, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S800000x1, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S1x128x128, .f32⟩
  | 126 => ⟨S128x128, .f32⟩
  | 127 => ⟨S1x128x128, .f32⟩
  | _ => ⟨S50000x128, .f32⟩

abbrev hbmTy0_1 (i : Nat) : BufTy := match i % 128 with
  | 0 => ⟨S128x128, .f32⟩
  | 1 => ⟨S1x128x128, .f32⟩
  | 2 => ⟨S128x128, .f32⟩
  | 3 => ⟨S1x128x128, .f32⟩
  | 4 => ⟨S128x128, .f32⟩
  | 5 => ⟨S50000x128, .f32⟩
  | 6 => ⟨S800000x1, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x128, .f32⟩
  | 16 => ⟨S800000x128, .f32⟩
  | 17 => ⟨S800000x128, .f32⟩
  | 18 => ⟨S_, .f32⟩
  | 19 => ⟨S50000x128, .f32⟩
  | 20 => ⟨S800000x1, .i32⟩
  | 21 => ⟨S50000x128, .f32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S800000x1, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S800000x1, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S1x128x128, .f32⟩
  | 83 => ⟨S128x128, .f32⟩
  | 84 => ⟨S1x128x128, .f32⟩
  | 85 => ⟨S128x128, .f32⟩
  | 86 => ⟨S1x128x128, .f32⟩
  | 87 => ⟨S128x128, .f32⟩
  | 88 => ⟨S1x128x128, .f32⟩
  | 89 => ⟨S128x128, .f32⟩
  | 90 => ⟨S1x128x128, .f32⟩
  | 91 => ⟨S128x128, .f32⟩
  | 92 => ⟨S50000x128, .f32⟩
  | 93 => ⟨S800000x1, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S800000x1, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S800000x1, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S800000x128, .f32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S_, .f32⟩
  | 18 => ⟨S50000x128, .f32⟩
  | 19 => ⟨S50000x128, .f32⟩
  | 20 => ⟨S50000x128, .f32⟩
  | 21 => ⟨S800000x1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x128, .f32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S1x128x16, .f32⟩
  | 42 => ⟨S128x16, .f32⟩
  | 43 => ⟨S1x128x16, .f32⟩
  | 44 => ⟨S128x16, .f32⟩
  | 45 => ⟨S1x128x16, .f32⟩
  | 46 => ⟨S128x16, .f32⟩
  | 47 => ⟨S1x128x16, .f32⟩
  | 48 => ⟨S128x16, .f32⟩
  | 49 => ⟨S1x128x16, .f32⟩
  | 50 => ⟨S128x16, .f32⟩
  | 51 => ⟨S50000x16, .f32⟩
  | 52 => ⟨S_, .f32⟩
  | 53 => ⟨S64x16, .f32⟩
  | 54 => ⟨S50000x1, .i32⟩
  | 55 => ⟨S64x16, .f32⟩
  | 56 => ⟨S_, .f32⟩
  | 57 => ⟨S50000, .f32⟩
  | 58 => ⟨S_, .f32⟩
  | 59 => ⟨S64, .f32⟩
  | 60 => ⟨S50000x1, .i32⟩
  | 61 => ⟨S64, .f32⟩
  | 62 => ⟨S_, .f32⟩
  | 63 => ⟨S64, .f32⟩
  | 64 => ⟨S64, .f32⟩
  | 65 => ⟨S64x1, .f32⟩
  | 66 => ⟨S64x16, .f32⟩
  | 67 => ⟨S64x16, .f32⟩
  | 68 => ⟨S_, .f32⟩
  | 69 => ⟨S64, .f32⟩
  | 70 => ⟨S_, .f32⟩
  | 71 => ⟨S64, .f32⟩
  | 72 => ⟨S64, .f32⟩
  | 73 => ⟨S64x1, .f32⟩
  | 74 => ⟨S64x16, .f32⟩
  | 75 => ⟨S64x16, .f32⟩
  | 76 => ⟨S64x16, .f32⟩
  | 77 => ⟨S_, .f32⟩
  | 78 => ⟨S64, .f32⟩
  | 79 => ⟨S64x1, .f32⟩
  | 80 => ⟨S64x1, .f32⟩
  | 81 => ⟨S64x16, .f32⟩
  | 82 => ⟨S64x16, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x16, .f32⟩
  | .local _ .vmem, ⟨47, _⟩ => ⟨S128x16, .f32⟩
  | .local _ .vmem, ⟨48, _⟩ => ⟨S128x16, .f32⟩
  | .local _ .vmem, ⟨49, _⟩ => ⟨S128x16, .f32⟩
  | .local _ .vmem, ⟨50, _⟩ => ⟨S128x16, .f32⟩
  | .local _ .vmem, ⟨51, _⟩ => ⟨S16, .f32⟩
  | .local _ .vmem, ⟨52, _⟩ => ⟨S2000x16, .f32⟩
  | .local _ .vmem, ⟨53, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_14 : Ref sig .tc := ⟨.hbm, 84, rfl⟩
abbrev main_v56 : Ref sig .tc := ⟨.hbm, 85, rfl⟩
abbrev main_v57 : Ref sig .tc := ⟨.hbm, 86, rfl⟩
abbrev main_c_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_22 : Ref sig .tc := ⟨.hbm, 135, rfl⟩
abbrev main_v99 : Ref sig .tc := ⟨.hbm, 136, rfl⟩
abbrev main_v100 : Ref sig .tc := ⟨.hbm, 137, rfl⟩
abbrev main_c_23 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_24 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_25 : Ref sig .tc := ⟨.hbm, 151, rfl⟩
abbrev main_v112 : Ref sig .tc := ⟨.hbm, 152, rfl⟩
abbrev main_v113 : Ref sig .tc := ⟨.hbm, 153, rfl⟩
abbrev main_c_26 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_27 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_28 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_29 : Ref sig .tc := ⟨.hbm, 171, rfl⟩
abbrev main_v128 : Ref sig .tc := ⟨.hbm, 172, rfl⟩
abbrev main_v129 : Ref sig .tc := ⟨.hbm, 173, rfl⟩
abbrev main_c_30 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_31 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_32 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_c_33 : Ref sig .tc := ⟨.hbm, 191, rfl⟩
abbrev main_v144 : Ref sig .tc := ⟨.hbm, 192, rfl⟩
abbrev main_v145 : Ref sig .tc := ⟨.hbm, 193, rfl⟩
abbrev main_c_34 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_35 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_36 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_c_37 : Ref sig .tc := ⟨.hbm, 222, rfl⟩
abbrev main_v171 : Ref sig .tc := ⟨.hbm, 223, rfl⟩
abbrev main_v172 : Ref sig .tc := ⟨.hbm, 224, rfl⟩
abbrev main_c_38 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_cst_39 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_c_40 : Ref sig .tc := ⟨.hbm, 238, rfl⟩
abbrev main_v184 : Ref sig .tc := ⟨.hbm, 239, rfl⟩
abbrev main_v185 : Ref sig .tc := ⟨.hbm, 240, rfl⟩
abbrev main_c_41 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_cst_42 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_cst_43 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_c_44 : Ref sig .tc := ⟨.hbm, 258, rfl⟩
abbrev main_v200 : Ref sig .tc := ⟨.hbm, 259, rfl⟩
abbrev main_v201 : Ref sig .tc := ⟨.hbm, 260, rfl⟩
abbrev main_c_45 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_cst_46 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_cst_47 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_c_48 : Ref sig .tc := ⟨.hbm, 278, rfl⟩
abbrev main_v216 : Ref sig .tc := ⟨.hbm, 279, rfl⟩
abbrev main_v217 : Ref sig .tc := ⟨.hbm, 280, rfl⟩
abbrev main_c_49 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_cst_50 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_cst_51 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_cst_52 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_cst_53 : Ref sig .tc := ⟨.hbm, 312, rfl⟩
abbrev main_v245 : Ref sig .tc := ⟨.hbm, 313, rfl⟩
abbrev main_cst_54 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_cst_55 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_call1_cst : Ref sig .tc := ⟨.hbm, 324, rfl⟩
abbrev main_call1_v0 : Ref sig .tc := ⟨.hbm, 325, rfl⟩
abbrev main_call1_cst_0 : Ref sig .tc := ⟨.hbm, 326, rfl⟩
abbrev main_call1_v1 : Ref sig .tc := ⟨.hbm, 327, rfl⟩
abbrev main_call1_v2 : Ref sig .tc := ⟨.hbm, 328, rfl⟩
abbrev main_call1_v3 : Ref sig .tc := ⟨.hbm, 329, rfl⟩
abbrev main_call1_v4 : Ref sig .tc := ⟨.hbm, 330, rfl⟩
abbrev main_call1_v5 : Ref sig .tc := ⟨.hbm, 331, rfl⟩
abbrev main_call1_v6 : Ref sig .tc := ⟨.hbm, 332, rfl⟩
abbrev main_call1_cst_1 : Ref sig .tc := ⟨.hbm, 333, rfl⟩
abbrev main_call1_v7 : Ref sig .tc := ⟨.hbm, 334, rfl⟩
abbrev main_call1_v8 : Ref sig .tc := ⟨.hbm, 335, rfl⟩
abbrev main_call1_v9 : Ref sig .tc := ⟨.hbm, 336, rfl⟩
abbrev main_call1_v10 : Ref sig .tc := ⟨.hbm, 337, rfl⟩
abbrev main_v254 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg7_0 : Ref sig .tc := ⟨.vmem, 48, rfl⟩
abbrev cc2_stg8_0 : Ref sig .tc := ⟨.vmem, 49, rfl⟩
abbrev cc2_stg9_0 : Ref sig .tc := ⟨.vmem, 50, rfl⟩
abbrev cc2_stg10_0 : Ref sig .tc := ⟨.vmem, 51, rfl⟩
abbrev cc2_stg11_0 : Ref sig .tc := ⟨.vmem, 52, rfl⟩
abbrev cc2_stg11_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem6_0 : DmaSem sig := 47
abbrev cc2_sem7_0 : DmaSem sig := 48
abbrev cc2_sem8_0 : DmaSem sig := 49
abbrev cc2_sem9_0 : DmaSem sig := 50
abbrev cc2_sem10_0 : DmaSem sig := 51
abbrev cc2_sem11_0 : DmaSem sig := 52
abbrev cc2_sem11_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x16 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S16 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x16 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128x128_S1x128x128_1_0_0 : S5x128x128.Slices ![1, 0, 0] S1x128x128
  slices_S5x128x128_S1x128x128_2_0_0 : S5x128x128.Slices ![2, 0, 0] S1x128x128
  slices_S5x128x128_S1x128x128_3_0_0 : S5x128x128.Slices ![3, 0, 0] S1x128x128
  slices_S5x128x128_S1x128x128_4_0_0 : S5x128x128.Slices ![4, 0, 0] S1x128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  slices_S5x128x16_S1x128x16_0_0_0 : S5x128x16.Slices ![0, 0, 0] S1x128x16
  shapeCasts_S1x128x16_S128x16 : S1x128x16.ShapeCasts S128x16
  slices_S5x128x16_S1x128x16_1_0_0 : S5x128x16.Slices ![1, 0, 0] S1x128x16
  slices_S5x128x16_S1x128x16_2_0_0 : S5x128x16.Slices ![2, 0, 0] S1x128x16
  slices_S5x128x16_S1x128x16_3_0_0 : S5x128x16.Slices ![3, 0, 0] S1x128x16
  slices_S5x128x16_S1x128x16_4_0_0 : S5x128x16.Slices ![4, 0, 0] S1x128x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S_S64x16 : S_.BroadcastsInDim S64x16 (![] : Fin 0 → Fin S64x16.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  reducesTo_S64x16_S64_d1 : S64x16.ReducesTo [1] S64
  h_S_ : 0 < S_.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  scatter_S64x16_S50000x1_S50000x16_1_0_0_1_wf : ScatterDims.WF S64x16 S50000x1 S50000x16 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x16.size a ≤ S128x16.size a
  hwx2_5 : ∀ i : grid2.Coords, EltTy.bits .f32 = 32 ∨ (Rect.block (s := S128x16) S128x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x16.size a ≤ S128x16.size a
  hwx2_6 : ∀ i : grid2.Coords, EltTy.bits .f32 = 32 ∨ (Rect.block (s := S128x16) S128x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x16.size a ≤ S128x16.size a
  hwx2_7 : ∀ i : grid2.Coords, EltTy.bits .f32 = 32 ∨ (Rect.block (s := S128x16) S128x16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x16.size a ≤ S128x16.size a
  hwx2_8 : ∀ i : grid2.Coords, EltTy.bits .f32 = 32 ∨ (Rect.block (s := S128x16) S128x16.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x16.size a ≤ S128x16.size a
  hwx2_9 : ∀ i : grid2.Coords, EltTy.bits .f32 = 32 ∨ (Rect.block (s := S128x16) S128x16.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S16.size a ≤ S16.size a
  hwx2_10 : ∀ i : grid2.Coords, EltTy.bits .f32 = 32 ∨ (Rect.block (s := S16) S16.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x16.size a ≤ S50000x16.size a
  hwx2_11 : ∀ i : grid2.Coords, EltTy.bits .f32 = 32 ∨ (Rect.block (s := S50000x16) S2000x16.size (cc2_transform_11 i) (hinb2_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def scatter_S64x16_S50000x1_S50000x16_1_0_0_1 : ScatterDims S64x16 S50000x1 S50000x16 where
  updateWindowDims := [1]
  insertedWindowDims := [0]
  scatterDimsToOperandDims := [0]
  indexVectorDim := 1
  wf := scatter_S64x16_S50000x1_S50000x16_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v70) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v86) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v88) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v90) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v92) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v94) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v96) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v97) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v97) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v110) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v126) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v142) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v158) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v160) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v162) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v164) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v166) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v168) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg7) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v169) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v169) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v182) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v198) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v214) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v230) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v232) S128x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v234) S128x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v236) S128x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v238) S128x16.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v240) S128x16.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg9) S16.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v241) S2000x16.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S5x128x128 : Shape := ⟨3, ![5, 128, 128]⟩
abbrev S128 : Shape := ⟨1, ![128]⟩
abbrev S5x128x16 : Shape := ⟨3, ![5, 128, 16]⟩
abbrev S16 : Shape := ⟨1, ![16]⟩
abbrev S_ : Shape := ⟨0, ![]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S1x128x16 : Shape := ⟨3, ![1, 128, 16]⟩
abbrev S128x16 : Shape := ⟨2, ![128, 16]⟩
abbrev S50000x16 : Shape := ⟨2, ![50000, 16]⟩
abbrev S1x16 : Shape := ⟨2, ![1, 16]⟩
abbrev S64x16 : Shape := ⟨2, ![64, 16]⟩
abbrev S50000x1 : Shape := ⟨2, ![50000, 1]⟩
abbrev S64 : Shape := ⟨1, ![64]⟩
abbrev S64x1 : Shape := ⟨2, ![64, 1]⟩

abbrev nBuf : Space → Nat
  | .hbm => 378
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S5x128x128, .f32⟩
  | 5 => ⟨S128, .f32⟩
  | 6 => ⟨S5x128x128, .f32⟩
  | 7 => ⟨S128, .f32⟩
  | 8 => ⟨S5x128x16, .f32⟩
  | 9 => ⟨S16, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S1x128x128, .f32⟩
  | 48 => ⟨S128x128, .f32⟩
  | 49 => ⟨S50000x128, .f32⟩
  | 50 => ⟨S800000x1, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S1x128x128, .f32⟩
  | 67 => ⟨S128x128, .f32⟩
  | 68 => ⟨S50000x128, .f32⟩
  | 69 => ⟨S50000x128, .f32⟩
  | 70 => ⟨S800000x1, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S50000x128, .f32⟩
  | 94 => ⟨S800000x1, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S1x128x128, .f32⟩
  | 115 => ⟨S128x128, .f32⟩
  | 116 => ⟨S50000x128, .f32⟩
  | 117 => ⟨S50000x128, .f32⟩
  | 118 => ⟨S800000x1, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x128, .f32⟩

abbrev hbmTy0_1 (i : Nat) : BufTy := match i % 128 with
  | 0 => ⟨S800000x128, .f32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S1x128x128, .f32⟩
  | 11 => ⟨S128x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S1x128x128, .f32⟩
  | 21 => ⟨S128x128, .f32⟩
  | 22 => ⟨S50000x128, .f32⟩
  | 23 => ⟨S800000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S1x128x128, .f32⟩
  | 40 => ⟨S128x128, .f32⟩
  | 41 => ⟨S50000x128, .f32⟩
  | 42 => ⟨S50000x128, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S50000x128, .f32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S1x128x128, .f32⟩
  | 88 => ⟨S128x128, .f32⟩
  | 89 => ⟨S50000x128, .f32⟩
  | 90 => ⟨S50000x128, .f32⟩
  | 91 => ⟨S800000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S800000x128, .f32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S1x128x128, .f32⟩
  | 112 => ⟨S128x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S1x128x16, .f32⟩
  | 122 => ⟨S128x16, .f32⟩
  | 123 => ⟨S50000x16, .f32⟩
  | 124 => ⟨S800000x1, .f32⟩
  | 125 => ⟨S_, .i32⟩
  | 126 => ⟨S800000, .i32⟩
  | 127 => ⟨S800000, .i1⟩
  | _ => ⟨S50000x128, .f32⟩

abbrev hbmTy0_2 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S800000x128, .f32⟩
  | 7 => ⟨S800000x128, .f32⟩
  | 8 => ⟨S_, .f32⟩
  | 9 => ⟨S50000x128, .f32⟩
  | 10 => ⟨S800000x1, .i32⟩
  | 11 => ⟨S50000x128, .f32⟩
  | 12 => ⟨S1x128x16, .f32⟩
  | 13 => ⟨S128x16, .f32⟩
  | 14 => ⟨S50000x16, .f32⟩
  | 15 => ⟨S50000x16, .f32⟩
  | 16 => ⟨S800000x1, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S800000x128, .f32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S50000x128, .f32⟩
  | 34 => ⟨S50000x128, .f32⟩
  | 35 => ⟨S50000x128, .f32⟩
  | 36 => ⟨S1x128x16, .f32⟩
  | 37 => ⟨S128x16, .f32⟩
  | 38 => ⟨S50000x16, .f32⟩
  | 39 => ⟨S50000x16, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S1x128x16, .f32⟩
  | 61 => ⟨S128x16, .f32⟩
  | 62 => ⟨S50000x16, .f32⟩
  | 63 => ⟨S50000x16, .f32⟩
  | 64 => ⟨S800000x1, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S800000x128, .f32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S1x128x16, .f32⟩
  | 85 => ⟨S128x16, .f32⟩
  | 86 => ⟨S50000x16, .f32⟩
  | 87 => ⟨S50000x16, .f32⟩
  | 88 => ⟨S1x16, .f32⟩
  | 89 => ⟨S50000x16, .f32⟩
  | 90 => ⟨S50000x16, .f32⟩
  | 91 => ⟨S_, .f32⟩
  | 92 => ⟨S64x16, .f32⟩
  | 93 => ⟨S50000x1, .i32⟩
  | 94 => ⟨S64x16, .f32⟩
  | 95 => ⟨S_, .f32⟩
  | 96 => ⟨S50000, .f32⟩
  | 97 => ⟨S_, .f32⟩
  | 98 => ⟨S64, .f32⟩
  | 99 => ⟨S50000x1, .i32⟩
  | 100 => ⟨S64, .f32⟩
  | 101 => ⟨S_, .f32⟩
  | 102 => ⟨S64, .f32⟩
  | 103 => ⟨S64, .f32⟩
  | 104 => ⟨S64x1, .f32⟩
  | 105 => ⟨S64x16, .f32⟩
  | 106 => ⟨S64x16, .f32⟩
  | 107 => ⟨S_, .f32⟩
  | 108 => ⟨S64, .f32⟩
  | 109 => ⟨S_, .f32⟩
  | 110 => ⟨S64, .f32⟩
  | 111 => ⟨S64, .f32⟩
  | 112 => ⟨S64x1, .f32⟩
  | 113 => ⟨S64x16, .f32⟩
  | 114 => ⟨S64x16, .f32⟩
  | 115 => ⟨S64x16, .f32⟩
  | 116 => ⟨S_, .f32⟩
  | 117 => ⟨S64, .f32⟩
  | 118 => ⟨S64x1, .f32⟩
  | 119 => ⟨S64x1, .f32⟩
  | 120 => ⟨S64x16, .f32⟩
  | 121 => ⟨S64x16, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_18 : Ref sig .tc := ⟨.hbm, 119, rfl⟩
abbrev main_v87 : Ref sig .tc := ⟨.hbm, 120, rfl⟩
abbrev main_v88 : Ref sig .tc := ⟨.hbm, 121, rfl⟩
abbrev main_c_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_20 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_call1_cst : Ref sig .tc := ⟨.hbm, 145, rfl⟩
abbrev main_call1_v0 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_22 : Ref sig .tc := ⟨.hbm, 152, rfl⟩
abbrev main_v114 : Ref sig .tc := ⟨.hbm, 153, rfl⟩
abbrev main_v115 : Ref sig .tc := ⟨.hbm, 154, rfl⟩
abbrev main_c_23 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_24 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_c_25 : Ref sig .tc := ⟨.hbm, 172, rfl⟩
abbrev main_v131 : Ref sig .tc := ⟨.hbm, 173, rfl⟩
abbrev main_v132 : Ref sig .tc := ⟨.hbm, 174, rfl⟩
abbrev main_c_26 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_27 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_28 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_c_29 : Ref sig .tc := ⟨.hbm, 196, rfl⟩
abbrev main_v151 : Ref sig .tc := ⟨.hbm, 197, rfl⟩
abbrev main_v152 : Ref sig .tc := ⟨.hbm, 198, rfl⟩
abbrev main_c_30 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_31 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_cst_32 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_c_33 : Ref sig .tc := ⟨.hbm, 220, rfl⟩
abbrev main_v171 : Ref sig .tc := ⟨.hbm, 221, rfl⟩
abbrev main_v172 : Ref sig .tc := ⟨.hbm, 222, rfl⟩
abbrev main_c_34 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_35 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_36 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_call2_cst : Ref sig .tc := ⟨.hbm, 246, rfl⟩
abbrev main_call2_v0 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_c_37 : Ref sig .tc := ⟨.hbm, 253, rfl⟩
abbrev main_v198 : Ref sig .tc := ⟨.hbm, 254, rfl⟩
abbrev main_v199 : Ref sig .tc := ⟨.hbm, 255, rfl⟩
abbrev main_c_38 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_cst_39 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_c_40 : Ref sig .tc := ⟨.hbm, 273, rfl⟩
abbrev main_v215 : Ref sig .tc := ⟨.hbm, 274, rfl⟩
abbrev main_v216 : Ref sig .tc := ⟨.hbm, 275, rfl⟩
abbrev main_c_41 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_cst_42 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_cst_43 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_c_44 : Ref sig .tc := ⟨.hbm, 297, rfl⟩
abbrev main_v235 : Ref sig .tc := ⟨.hbm, 298, rfl⟩
abbrev main_v236 : Ref sig .tc := ⟨.hbm, 299, rfl⟩
abbrev main_c_45 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_cst_46 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_cst_47 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_c_48 : Ref sig .tc := ⟨.hbm, 321, rfl⟩
abbrev main_v255 : Ref sig .tc := ⟨.hbm, 322, rfl⟩
abbrev main_v256 : Ref sig .tc := ⟨.hbm, 323, rfl⟩
abbrev main_c_49 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_cst_50 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_cst_51 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_cst_52 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_cst_53 : Ref sig .tc := ⟨.hbm, 351, rfl⟩
abbrev main_v280 : Ref sig .tc := ⟨.hbm, 352, rfl⟩
abbrev main_cst_54 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_cst_55 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_call3_cst : Ref sig .tc := ⟨.hbm, 363, rfl⟩
abbrev main_call3_v0 : Ref sig .tc := ⟨.hbm, 364, rfl⟩
abbrev main_call3_cst_0 : Ref sig .tc := ⟨.hbm, 365, rfl⟩
abbrev main_call3_v1 : Ref sig .tc := ⟨.hbm, 366, rfl⟩
abbrev main_call3_v2 : Ref sig .tc := ⟨.hbm, 367, rfl⟩
abbrev main_call3_v3 : Ref sig .tc := ⟨.hbm, 368, rfl⟩
abbrev main_call3_v4 : Ref sig .tc := ⟨.hbm, 369, rfl⟩
abbrev main_call3_v5 : Ref sig .tc := ⟨.hbm, 370, rfl⟩
abbrev main_call3_v6 : Ref sig .tc := ⟨.hbm, 371, rfl⟩
abbrev main_call3_cst_1 : Ref sig .tc := ⟨.hbm, 372, rfl⟩
abbrev main_call3_v7 : Ref sig .tc := ⟨.hbm, 373, rfl⟩
abbrev main_call3_v8 : Ref sig .tc := ⟨.hbm, 374, rfl⟩
abbrev main_call3_v9 : Ref sig .tc := ⟨.hbm, 375, rfl⟩
abbrev main_call3_v10 : Ref sig .tc := ⟨.hbm, 376, rfl⟩
abbrev main_v289 : Ref sig .tc := ⟨.hbm, 377, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S5x128x128_S1x128x128_0_0_0 : S5x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S5x128x128_S1x128x128_1_0_0 : S5x128x128.Slices ![1, 0, 0] S1x128x128
  slices_S5x128x128_S1x128x128_2_0_0 : S5x128x128.Slices ![2, 0, 0] S1x128x128
  slices_S5x128x128_S1x128x128_3_0_0 : S5x128x128.Slices ![3, 0, 0] S1x128x128
  slices_S5x128x128_S1x128x128_4_0_0 : S5x128x128.Slices ![4, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S5x128x16_S1x128x16_0_0_0 : S5x128x16.Slices ![0, 0, 0] S1x128x16
  shapeCasts_S1x128x16_S128x16 : S1x128x16.ShapeCasts S128x16
  slices_S5x128x16_S1x128x16_1_0_0 : S5x128x16.Slices ![1, 0, 0] S1x128x16
  slices_S5x128x16_S1x128x16_2_0_0 : S5x128x16.Slices ![2, 0, 0] S1x128x16
  slices_S5x128x16_S1x128x16_3_0_0 : S5x128x16.Slices ![3, 0, 0] S1x128x16
  slices_S5x128x16_S1x128x16_4_0_0 : S5x128x16.Slices ![4, 0, 0] S1x128x16
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S64x16 : S_.BroadcastsInDim S64x16 (![] : Fin 0 → Fin S64x16.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  reducesTo_S64x16_S64_d1 : S64x16.ReducesTo [1] S64
  h_S_ : 0 < S_.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x16_S50000x16_1_0_0_1_n_n_wf : DotDims.WF S50000x128 S128x16 S50000x16 [1] [0] [0] [1] [] []
  scatter_S64x16_S50000x1_S50000x16_1_0_0_1_wf : ScatterDims.WF S64x16 S50000x1 S50000x16 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def scatter_S64x16_S50000x1_S50000x16_1_0_0_1 : ScatterDims S64x16 S50000x1 S50000x16 where
  updateWindowDims := [1]
  insertedWindowDims := [0]
  scatterDimsToOperandDims := [0]
  indexVectorDim := 1
  wf := scatter_S64x16_S50000x1_S50000x16_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KRun.lean ====
/-
  The idealized kernel's run with its result NAMED. The program is three node-tiled combine kernels among stretches of host
  operations; the run is the chain of those segments, and at the end every unscoped buffer holds the fold of the segments over the
  launch memory (`Gen.W10`). Read at the result buffer this says what the program returns; read at the arguments, that they are
  as launched.
-/
import proofs.«113539_j65317862637698_1_alg».proof.Proof.Gen.KernelIdeal.Frame

set_option maxRecDepth 16384

noncomputable section

namespace Cert.KernelIdeal.KVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting; the result buffer ends at the
    fold of @main's segments over the launch memory, and the argument arrays end as launched. The segments, the launch and the
    read of the last thread state against the final state are those of the frame; only the result buffer is read in addition. -/
theorem run_value : θ_run defs (onTc (τ := τ) (main (F := F))) ⟨m, fun _ => 0, ρ⟩ (fun r => ∀ c : Dev nD,
      r.2.mem ((c.tc : Thread nD τ).loc main_v254) = W10 m ρ c (Proc.devRef .tc main_v254)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v254 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.KVal

end
-- ==== Proof.Spec.lean ====
/-
  The ChebNet forward pass both programs compute, as functions of the argument arrays.
  Nodes carry feature rows; an edge `e` goes from node `src e` to node `dst e`. With `deg` the out-degree counted over `src` and
  `dinv = deg^(-1/2)` where `deg > 0` (else 0), the edge weight is `w e = -dinv (src e) * dinv (dst e)`, and the propagation of a
  feature map `h` is `(L h) i = Σ_{e : dst e = i} w e * h (src e)` (gather the source rows, scale, scatter-add by target).
  A layer takes the Chebyshev recurrence `T0 = h, T1 = L T0, T(k+1) = 2 · L Tk - T(k-1)` up to `T4` and returns
  `T0 · W0 + T1 · W1 + T2 · W2 + T3 · W3 + T4 · W4 + b`, through `max · 0` for the first two layers. The three layers are followed by
  the mean over the nodes of each graph (`batch` names a node's graph) and a log-softmax along the 16 classes.
  Every function below is the composition of host operations the two printed programs share; none is opened by the proofs that use
  them, except the layer's sum of products, which is read index by index against the kernel's tile.
-/
import proofs.«113539_j65317862637698_1_alg».proof.Proof.Gen.ReferenceIdeal

noncomputable section

namespace Cheb

open Cert.ReferenceIdeal Cert.ReferenceIdeal.Gen Idealize.ShloMosaic Idealize.ShloMosaic.TcCoe

variable {F : FTy → Type} [FloatOps F]

set_option quotPrecheck false in
local notation "𝕋[" S ", " φ "]" => BufTy.Contents (Elt F) (BufTy.mk S φ)

/-- An index word per edge, as a column: a negative word counts from the end (jnp's wrap of `h[src]`). -/
def wrapCol (s : 𝕋[S800000, .i32]) : 𝕋[S800000x1, .i32] :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The out-degree of every node: ones scatter-added by `src`. -/
def degree (src : 𝕋[S800000, .i32]) : 𝕋[S50000, .f32] :=
  Host.scatterAdd scatter_S50000_S800000x1_S800000_n_0_0_1 (broadcastInDim S50000 ![] bcast_S_S50000 (constant S_ .f32 0x00000000#32))
    (broadcastInDim S800000x1 ![0] bcast_S800000_S800000x1_0 src) (broadcastInDim S800000 ![] bcast_S_S800000 (constant S_ .f32 0x3F800000#32))

/-- `deg^(-1/2)` where the degree is positive, zero elsewhere. -/
def invSqrtDeg (src : 𝕋[S800000, .i32]) : 𝕋[S50000, .f32] :=
  select (cmpf .ogt (degree src) (broadcastInDim S50000 ![] bcast_S_S50000 (constant S_ .f32 0x00000000#32)))
    (Host.rsqrt (maximumf (degree src) (broadcastInDim S50000 ![] bcast_S_S50000 (constant S_ .f32 0x3F800000#32))))
    (broadcastInDim S50000 ![] bcast_S_S50000 (id (constant S_ .f32 0x00000000#32)))

/-- The weight of every edge: `-dinv (src e) * dinv (dst e)`. -/
def edgeWeight (src dst : 𝕋[S800000, .i32]) : 𝕋[S800000, .f32] :=
  mulf (Host.negf (Host.gather gather_S50000_S800000x1_S800000_n_0_n_n_0_1_1 (invSqrtDeg src) (wrapCol src)))
    (Host.gather gather_S50000_S800000x1_S800000_n_0_n_n_0_1_1 (invSqrtDeg src) (wrapCol dst))

/-- One propagation: the source rows gathered, scaled by the edge weight, scatter-added at the target rows. -/
def propagate (w : 𝕋[S800000, .f32]) (src dst : 𝕋[S800000, .i32]) (h : 𝕋[S50000x128, .f32]) : 𝕋[S50000x128, .f32] :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 h (wrapCol src)))

/-- The recurrence's step: `2 · p - t`. -/
def step (p t : 𝕋[S50000x128, .f32]) : 𝕋[S50000x128, .f32] :=
  subf (mulf (broadcastInDim S50000x128 ![] bcast_S_S50000x128 (constant S_ .f32 0x40000000#32)) p) t

def cheb1 (w : 𝕋[S800000, .f32]) (src dst : 𝕋[S800000, .i32]) (h : 𝕋[S50000x128, .f32]) : 𝕋[S50000x128, .f32] := propagate w src dst h
def cheb2 (w : 𝕋[S800000, .f32]) (src dst : 𝕋[S800000, .i32]) (h : 𝕋[S50000x128, .f32]) : 𝕋[S50000x128, .f32] :=
  step (propagate w src dst (cheb1 w src dst h)) h
def cheb3 (w : 𝕋[S800000, .f32]) (src dst : 𝕋[S800000, .i32]) (h : 𝕋[S50000x128, .f32]) : 𝕋[S50000x128, .f32] :=
  step (propagate w src dst (cheb2 w src dst h)) (cheb1 w src dst h)
def cheb4 (w : 𝕋[S800000, .f32]) (src dst : 𝕋[S800000, .i32]) (h : 𝕋[S50000x128, .f32]) : 𝕋[S50000x128, .f32] :=
  step (propagate w src dst (cheb3 w src dst h)) (cheb2 w src dst h)

/-- The five 128 × 128 weight matrices of a hidden layer. -/
def w128_0 (W : 𝕋[S5x128x128, .f32]) : 𝕋[S128x128, .f32] := shapeCast _ (extractStridedSlice S1x128x128 ![0, 0, 0] W slices_S5x128x128_S1x128x128_0_0_0) shapeCasts_S1x128x128_S128x128
def w128_1 (W : 𝕋[S5x128x128, .f32]) : 𝕋[S128x128, .f32] := shapeCast _ (extractStridedSlice S1x128x128 ![1, 0, 0] W slices_S5x128x128_S1x128x128_1_0_0) shapeCasts_S1x128x128_S128x128
def w128_2 (W : 𝕋[S5x128x128, .f32]) : 𝕋[S128x128, .f32] := shapeCast _ (extractStridedSlice S1x128x128 ![2, 0, 0] W slices_S5x128x128_S1x128x128_2_0_0) shapeCasts_S1x128x128_S128x128
def w128_3 (W : 𝕋[S5x128x128, .f32]) : 𝕋[S128x128, .f32] := shapeCast _ (extractStridedSlice S1x128x128 ![3, 0, 0] W slices_S5x128x128_S1x128x128_3_0_0) shapeCasts_S1x128x128_S128x128
def w128_4 (W : 𝕋[S5x128x128, .f32]) : 𝕋[S128x128, .f32] := shapeCast _ (extractStridedSlice S1x128x128 ![4, 0, 0] W slices_S5x128x128_S1x128x128_4_0_0) shapeCasts_S1x128x128_S128x128
/-- The five 128 × 16 weight matrices of the output layer. -/
def w16_0 (W : 𝕋[S5x128x16, .f32]) : 𝕋[S128x16, .f32] := shapeCast _ (extractStridedSlice S1x128x16 ![0, 0, 0] W slices_S5x128x16_S1x128x16_0_0_0) shapeCasts_S1x128x16_S128x16
def w16_1 (W : 𝕋[S5x128x16, .f32]) : 𝕋[S128x16, .f32] := shapeCast _ (extractStridedSlice S1x128x16 ![1, 0, 0] W slices_S5x128x16_S1x128x16_1_0_0) shapeCasts_S1x128x16_S128x16
def w16_2 (W : 𝕋[S5x128x16, .f32]) : 𝕋[S128x16, .f32] := shapeCast _ (extractStridedSlice S1x128x16 ![2, 0, 0] W slices_S5x128x16_S1x128x16_2_0_0) shapeCasts_S1x128x16_S128x16
def w16_3 (W : 𝕋[S5x128x16, .f32]) : 𝕋[S128x16, .f32] := shapeCast _ (extractStridedSlice S1x128x16 ![3, 0, 0] W slices_S5x128x16_S1x128x16_3_0_0) shapeCasts_S1x128x16_S128x16
def w16_4 (W : 𝕋[S5x128x16, .f32]) : 𝕋[S128x16, .f32] := shapeCast _ (extractStridedSlice S1x128x16 ![4, 0, 0] W slices_S5x128x16_S1x128x16_4_0_0) shapeCasts_S1x128x16_S128x16

/-- A hidden layer's sum of products plus bias, before the clamp at zero: `t0·u0 + t1·u1 + t2·u2 + t3·u3 + t4·u4 + b`. -/
def combine128 (t0 t1 t2 t3 t4 : 𝕋[S50000x128, .f32]) (u0 u1 u2 u3 u4 : 𝕋[S128x128, .f32]) (b : 𝕋[S128, .f32]) : 𝕋[S50000x128, .f32] :=
  addf (addf (addf (addf (addf
      (Host.dotGeneral dot_S50000x128_S128x128_S50000x128_1_0_0_1_n_n none t0 u0)
      (Host.dotGeneral dot_S50000x128_S128x128_S50000x128_1_0_0_1_n_n none t1 u1))
      (Host.dotGeneral dot_S50000x128_S128x128_S50000x128_1_0_0_1_n_n none t2 u2))
      (Host.dotGeneral dot_S50000x128_S128x128_S50000x128_1_0_0_1_n_n none t3 u3))
      (Host.dotGeneral dot_S50000x128_S128x128_S50000x128_1_0_0_1_n_n none t4 u4))
    (broadcastInDim S50000x128 ![0, 1] bcast_S1x128_S50000x128_0_1 (broadcastInDim S1x128 ![1] bcast_S128_S1x128_1 b))

/-- The clamp at zero of a hidden layer. -/
def clamp (y : 𝕋[S50000x128, .f32]) : 𝕋[S50000x128, .f32] :=
  maximumf y (broadcastInDim S50000x128 ![] bcast_S_S50000x128 (constant S_ .f32 0x00000000#32))

/-- The output layer's sum of products plus bias. -/
def combine16 (t0 t1 t2 t3 t4 : 𝕋[S50000x128, .f32]) (u0 u1 u2 u3 u4 : 𝕋[S128x16, .f32]) (b : 𝕋[S16, .f32]) : 𝕋[S50000x16, .f32] :=
  addf (addf (addf (addf (addf
      (Host.dotGeneral dot_S50000x128_S128x16_S50000x16_1_0_0_1_n_n none t0 u0)
      (Host.dotGeneral dot_S50000x128_S128x16_S50000x16_1_0_0_1_n_n none t1 u1))
      (Host.dotGeneral dot_S50000x128_S128x16_S50000x16_1_0_0_1_n_n none t2 u2))
      (Host.dotGeneral dot_S50000x128_S128x16_S50000x16_1_0_0_1_n_n none t3 u3))
      (Host.dotGeneral dot_S50000x128_S128x16_S50000x16_1_0_0_1_n_n none t4 u4))
    (broadcastInDim S50000x16 ![0, 1] bcast_S1x16_S50000x16_0_1 (broadcastInDim S1x16 ![1] bcast_S16_S1x16_1 b))

/-- A hidden layer. -/
def hidden (w : 𝕋[S800000, .f32]) (src dst : 𝕋[S800000, .i32]) (h : 𝕋[S50000x128, .f32]) (W : 𝕋[S5x128x128, .f32]) (b : 𝕋[S128, .f32]) :
    𝕋[S50000x128, .f32] :=
  clamp (combine128 h (cheb1 w src dst h) (cheb2 w src dst h) (cheb3 w src dst h) (cheb4 w src dst h)
    (w128_0 W) (w128_1 W) (w128_2 W) (w128_3 W) (w128_4 W) b)

/-- The output layer. -/
def output (w : 𝕋[S800000, .f32]) (src dst : 𝕋[S800000, .i32]) (h : 𝕋[S50000x128, .f32]) (W : 𝕋[S5x128x16, .f32]) (b : 𝕋[S16, .f32]) :
    𝕋[S50000x16, .f32] :=
  combine16 h (cheb1 w src dst h) (cheb2 w src dst h) (cheb3 w src dst h) (cheb4 w src dst h)
    (w16_0 W) (w16_1 W) (w16_2 W) (w16_3 W) (w16_4 W) b

/-- The per-graph mean of the node rows (a graph without nodes divides by one). -/
def pooled (h : 𝕋[S50000x16, .f32]) (batch : 𝕋[S50000, .i32]) : 𝕋[S64x16, .f32] :=
  Host.divf
    (Host.scatterAdd scatter_S64x16_S50000x1_S50000x16_1_0_0_1 (broadcastInDim S64x16 ![] bcast_S_S64x16 (constant S_ .f32 0x00000000#32))
      (broadcastInDim S50000x1 ![0] bcast_S50000_S50000x1_0 batch) h)
    (broadcastInDim S64x16 ![0, 1] bcast_S64x1_S64x16_0_1 (broadcastInDim S64x1 ![0] bcast_S64_S64x1_0
      (maximumf
        (Host.scatterAdd scatter_S64_S50000x1_S50000_n_0_0_1 (broadcastInDim S64 ![] bcast_S_S64 (constant S_ .f32 0x00000000#32))
          (broadcastInDim S50000x1 ![0] bcast_S50000_S50000x1_0 batch) (broadcastInDim S50000 ![] bcast_S_S50000 (constant S_ .f32 0x3F800000#32)))
        (broadcastInDim S64 ![] bcast_S_S64 (constant S_ .f32 0x3F800000#32)))))

/-- A row minus its maximum (the log-softmax's shift). -/
def shifted (p : 𝕋[S64x16, .f32]) : 𝕋[S64x16, .f32] :=
  subf p (broadcastInDim S64x16 ![0, 1] bcast_S64x1_S64x16_0_1 (broadcastInDim S64x1 ![0] bcast_S64_S64x1_0
    (maximumf (broadcastInDim S64 ![] bcast_S_S64 (constant S_ .f32 0xFF800000#32))
      (Host.reduce FloatOps.maximumf p (constant S_ .f32 0xFF800000#32) reducesTo_S64x16_S64_d1 h_S_))))

/-- The log-softmax along the classes. -/
def logSoftmax (p : 𝕋[S64x16, .f32]) : 𝕋[S64x16, .f32] :=
  subf (shifted p) (broadcastInDim S64x16 ![0, 1] bcast_S64x1_S64x16_0_1 (Host.log (broadcastInDim S64x1 ![0] bcast_S64_S64x1_0
    (Host.reduceAdd (Host.exp (shifted p)) (constant S_ .f32 0x00000000#32) reducesTo_S64x16_S64_d1 h_S_))))

/-- The network's readout of the last layer's node rows. -/
def readout (h : 𝕋[S50000x16, .f32]) (batch : 𝕋[S50000, .i32]) : 𝕋[S64x16, .f32] := logSoftmax (pooled h batch)

/-- The whole forward pass. -/
def forward (x : 𝕋[S50000x128, .f32]) (src dst : 𝕋[S800000, .i32]) (batch : 𝕋[S50000, .i32])
    (W1 : 𝕋[S5x128x128, .f32]) (b1 : 𝕋[S128, .f32]) (W2 : 𝕋[S5x128x128, .f32]) (b2 : 𝕋[S128, .f32])
    (W3 : 𝕋[S5x128x16, .f32]) (b3 : 𝕋[S16, .f32]) : 𝕋[S64x16, .f32] :=
  readout (output (edgeWeight src dst) src dst
    (hidden (edgeWeight src dst) src dst (hidden (edgeWeight src dst) src dst x W1 b1) W2 b2) W3 b3) batch

end Cheb

end
-- ==== Proof.KHost.lean ====
/-
  The host operations of the idealized kernel's program, stretch by stretch, are the forward pass's pieces around the three combine
  kernels: before the first kernel the edge weights, the first layer's Chebyshev feature maps `T1 … T4` of the input features and the
  five slices of its weight tensor; before the second and the third kernel the same of the previous kernel's result; after the
  third the per-graph mean and the log-softmax. Each stretch is read from ANY buffer contents `V` it starts from; the buffers a
  later stretch or kernel still reads are not written in between.
-/
import proofs.«113539_j65317862637698_1_alg».proof.Proof.Gen.KernelIdeal.Launch
import proofs.«113539_j65317862637698_1_alg».proof.Proof.Spec

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo

variable {F : FTy → Type} [FloatOps F] (V : Valuation τ sig (Elt F))

/-! ## Before the first kernel -/

set_option maxHeartbeats 4000000 in
theorem stageA_weight : after hostOps0_2 (after hostOps0_1 (after hostOps0 V)) (Proc.devRef .tc main_v25) = Cheb.edgeWeight (V (Proc.devRef .tc main_arg1)) (V (Proc.devRef .tc main_arg2)) := by
  after_results_simp <;> rfl
set_option maxHeartbeats 4000000 in
theorem stageA_t1 : after hostOps0_2 (after hostOps0_1 (after hostOps0 V)) (Proc.devRef .tc main_v38) = Cheb.cheb1 (Cheb.edgeWeight (V (Proc.devRef .tc main_arg1)) (V (Proc.devRef .tc main_arg2))) (V (Proc.devRef .tc main_arg1)) (V (Proc.devRef .tc main_arg2)) (V (Proc.devRef .tc main_arg0)) := by
  after_results_simp <;> rfl
set_option maxHeartbeats 4000000 in
theorem stageA_t2 : after hostOps0_2 (after hostOps0_1 (after hostOps0 V)) (Proc.devRef .tc main_v54) = Cheb.cheb2 (Cheb.edgeWeight (V (Proc.devRef .tc main_arg1)) (V (Proc.devRef .tc main_arg2))) (V (Proc.devRef .tc main_arg1)) (V (Proc.devRef .tc main_arg2)) (V (Proc.devRef .tc main_arg0)) := by
  after_results_simp <;> rfl
set_option maxHeartbeats 8000000 in
theorem stageA_t3 : after hostOps0_2 (after hostOps0_1 (after hostOps0 V)) (Proc.devRef .tc main_v70) = Cheb.cheb3 (Cheb.edgeWeight (V (Proc.devRef .tc main_arg1)) (V (Proc.devRef .tc main_arg2))) (V (Proc.devRef .tc main_arg1)) (V (Proc.devRef .tc main_arg2)) (V (Proc.devRef .tc main_arg0)) := by
  after_results_simp <;> rfl
set_option maxHeartbeats 8000000 in
theorem stageA_t4 : after hostOps0_2 (after hostOps0_1 (after hostOps0 V)) (Proc.devRef .tc main_v86) = Cheb.cheb4 (Cheb.edgeWeight (V (Proc.devRef .tc main_arg1)) (V (Proc.devRef .tc main_arg2))) (V (Proc.devRef .tc main_arg1)) (V (Proc.devRef .tc main_arg2)) (V (Proc.devRef .tc main_arg0)) := by
  after_results_simp <;> rfl
theorem stageA_u0 : after hostOps0_2 (after hostOps0_1 (after hostOps0 V)) (Proc.devRef .tc main_v88) = Cheb.w128_0 (V (Proc.devRef .tc main_arg4)) := by
  after_results_simp <;> rfl
theorem stageA_u1 : after hostOps0_2 (after hostOps0_1 (after hostOps0 V)) (Proc.devRef .tc main_v90) = Cheb.w128_1 (V (Proc.devRef .tc main_arg4)) := by
  after_results_simp <;> rfl
theorem stageA_u2 : after hostOps0_2 (after hostOps0_1 (after hostOps0 V)) (Proc.devRef .tc main_v92) = Cheb.w128_2 (V (Proc.devRef .tc main_arg4)) := by
  after_results_simp <;> rfl
theorem stageA_u3 : after hostOps0_2 (after hostOps0_1 (after hostOps0 V)) (Proc.devRef .tc main_v94) = Cheb.w128_3 (V (Proc.devRef .tc main_arg4)) := by
  after_results_simp <;> rfl
theorem stageA_u4 : after hostOps0_2 (after hostOps0_1 (after hostOps0 V)) (Proc.devRef .tc main_v96) = Cheb.w128_4 (V (Proc.devRef .tc main_arg4)) := by
  after_results_simp <;> rfl
theorem stageA_arg0 : after hostOps0_2 (after hostOps0_1 (after hostOps0 V)) (Proc.devRef .tc main_arg0) = V (Proc.devRef .tc main_arg0) := by after_results_simp
theorem stageA_arg1 : after hostOps0_2 (after hostOps0_1 (after hostOps0 V)) (Proc.devRef .tc main_arg1) = V (Proc.devRef .tc main_arg1) := by after_results_simp
theorem stageA_arg2 : after hostOps0_2 (after hostOps0_1 (after hostOps0 V)) (Proc.devRef .tc main_arg2) = V (Proc.devRef .tc main_arg2) := by after_results_simp
theorem stageA_arg3 : after hostOps0_2 (after hostOps0_1 (after hostOps0 V)) (Proc.devRef .tc main_arg3) = V (Proc.devRef .tc main_arg3) := by after_results_simp
theorem stageA_arg5 : after hostOps0_2 (after hostOps0_1 (after hostOps0 V)) (Proc.devRef .tc main_arg5) = V (Proc.devRef .tc main_arg5) := by after_results_simp
theorem stageA_arg6 : after hostOps0_2 (after hostOps0_1 (after hostOps0 V)) (Proc.devRef .tc main_arg6) = V (Proc.devRef .tc main_arg6) := by after_results_simp
theorem stageA_arg7 : after hostOps0_2 (after hostOps0_1 (after hostOps0 V)) (Proc.devRef .tc main_arg7) = V (Proc.devRef .tc main_arg7) := by after_results_simp
theorem stageA_arg8 : after hostOps0_2 (after hostOps0_1 (after hostOps0 V)) (Proc.devRef .tc main_arg8) = V (Proc.devRef .tc main_arg8) := by after_results_simp
theorem stageA_arg9 : after hostOps0_2 (after hostOps0_1 (after hostOps0 V)) (Proc.devRef .tc main_arg9) = V (Proc.devRef .tc main_arg9) := by after_results_simp

/-! ## Between the first and the second kernel -/

set_option maxHeartbeats 4000000 in
theorem stageB_t1 : after hostOps1 V (Proc.devRef .tc main_v110) = Cheb.cheb1 (V (Proc.devRef .tc main_v25)) (V (Proc.devRef .tc main_arg1)) (V (Proc.devRef .tc main_arg2)) (V (Proc.devRef .tc main_v97)) := by
  after_results_simp <;> rfl
set_option maxHeartbeats 4000000 in
theorem stageB_t2 : after hostOps1 V (Proc.devRef .tc main_v126) = Cheb.cheb2 (V (Proc.devRef .tc main_v25)) (V (Proc.devRef .tc main_arg1)) (V (Proc.devRef .tc main_arg2)) (V (Proc.devRef .tc main_v97)) := by
  after_results_simp <;> rfl
set_option maxHeartbeats 8000000 in
theorem stageB_t3 : after hostOps1 V (Proc.devRef .tc main_v142) = Cheb.cheb3 (V (Proc.devRef .tc main_v25)) (V (Proc.devRef .tc main_arg1)) (V (Proc.devRef .tc main_arg2)) (V (Proc.devRef .tc main_v97)) := by
  after_results_simp <;> rfl
set_option maxHeartbeats 8000000 in
theorem stageB_t4 : after hostOps1 V (Proc.devRef .tc main_v158) = Cheb.cheb4 (V (Proc.devRef .tc main_v25)) (V (Proc.devRef .tc main_arg1)) (V (Proc.devRef .tc main_arg2)) (V (Proc.devRef .tc main_v97)) := by
  after_results_simp <;> rfl
theorem stageB_u0 : after hostOps1 V (Proc.devRef .tc main_v160) = Cheb.w128_0 (V (Proc.devRef .tc main_arg6)) := by
  after_results_simp <;> rfl
theorem stageB_u1 : after hostOps1 V (Proc.devRef .tc main_v162) = Cheb.w128_1 (V (Proc.devRef .tc main_arg6)) := by
  after_results_simp <;> rfl
theorem stageB_u2 : after hostOps1 V (Proc.devRef .tc main_v164) = Cheb.w128_2 (V (Proc.devRef .tc main_arg6)) := by
  after_results_simp <;> rfl
theorem stageB_u3 : after hostOps1 V (Proc.devRef .tc main_v166) = Cheb.w128_3 (V (Proc.devRef .tc main_arg6)) := by
  after_results_simp <;> rfl
theorem stageB_u4 : after hostOps1 V (Proc.devRef .tc main_v168) = Cheb.w128_4 (V (Proc.devRef .tc main_arg6)) := by
  after_results_simp <;> rfl
theorem stageB_v97 : after hostOps1 V (Proc.devRef .tc main_v97) = V (Proc.devRef .tc main_v97) := by after_results_simp
theorem stageB_v25 : after hostOps1 V (Proc.devRef .tc main_v25) = V (Proc.devRef .tc main_v25) := by after_results_simp
theorem stageB_arg1 : after hostOps1 V (Proc.devRef .tc main_arg1) = V (Proc.devRef .tc main_arg1) := by after_results_simp
theorem stageB_arg2 : after hostOps1 V (Proc.devRef .tc main_arg2) = V (Proc.devRef .tc main_arg2) := by after_results_simp
theorem stageB_arg3 : after hostOps1 V (Proc.devRef .tc main_arg3) = V (Proc.devRef .tc main_arg3) := by after_results_simp
theorem stageB_arg7 : after hostOps1 V (Proc.devRef .tc main_arg7) = V (Proc.devRef .tc main_arg7) := by after_results_simp
theorem stageB_arg8 : after hostOps1 V (Proc.devRef .tc main_arg8) = V (Proc.devRef .tc main_arg8) := by after_results_simp
theorem stageB_arg9 : after hostOps1 V (Proc.devRef .tc main_arg9) = V (Proc.devRef .tc main_arg9) := by after_results_simp

/-! ## Between the second and the third kernel -/

set_option maxHeartbeats 4000000 in
theorem stageC_t1 : after hostOps2 V (Proc.devRef .tc main_v182) = Cheb.cheb1 (V (Proc.devRef .tc main_v25)) (V (Proc.devRef .tc main_arg1)) (V (Proc.devRef .tc main_arg2)) (V (Proc.devRef .tc main_v169)) := by
  after_results_simp <;> rfl
set_option maxHeartbeats 4000000 in
theorem stageC_t2 : after hostOps2 V (Proc.devRef .tc main_v198) = Cheb.cheb2 (V (Proc.devRef .tc main_v25)) (V (Proc.devRef .tc main_arg1)) (V (Proc.devRef .tc main_arg2)) (V (Proc.devRef .tc main_v169)) := by
  after_results_simp <;> rfl
set_option maxHeartbeats 8000000 in
theorem stageC_t3 : after hostOps2 V (Proc.devRef .tc main_v214) = Cheb.cheb3 (V (Proc.devRef .tc main_v25)) (V (Proc.devRef .tc main_arg1)) (V (Proc.devRef .tc main_arg2)) (V (Proc.devRef .tc main_v169)) := by
  after_results_simp <;> rfl
set_option maxHeartbeats 8000000 in
theorem stageC_t4 : after hostOps2 V (Proc.devRef .tc main_v230) = Cheb.cheb4 (V (Proc.devRef .tc main_v25)) (V (Proc.devRef .tc main_arg1)) (V (Proc.devRef .tc main_arg2)) (V (Proc.devRef .tc main_v169)) := by
  after_results_simp <;> rfl
theorem stageC_u0 : after hostOps2 V (Proc.devRef .tc main_v232) = Cheb.w16_0 (V (Proc.devRef .tc main_arg8)) := by
  after_results_simp <;> rfl
theorem stageC_u1 : after hostOps2 V (Proc.devRef .tc main_v234) = Cheb.w16_1 (V (Proc.devRef .tc main_arg8)) := by
  after_results_simp <;> rfl
theorem stageC_u2 : after hostOps2 V (Proc.devRef .tc main_v236) = Cheb.w16_2 (V (Proc.devRef .tc main_arg8)) := by
  after_results_simp <;> rfl
theorem stageC_u3 : after hostOps2 V (Proc.devRef .tc main_v238) = Cheb.w16_3 (V (Proc.devRef .tc main_arg8)) := by
  after_results_simp <;> rfl
theorem stageC_u4 : after hostOps2 V (Proc.devRef .tc main_v240) = Cheb.w16_4 (V (Proc.devRef .tc main_arg8)) := by
  after_results_simp <;> rfl
theorem stageC_v169 : after hostOps2 V (Proc.devRef .tc main_v169) = V (Proc.devRef .tc main_v169) := by after_results_simp
theorem stageC_arg3 : after hostOps2 V (Proc.devRef .tc main_arg3) = V (Proc.devRef .tc main_arg3) := by after_results_simp
theorem stageC_arg9 : after hostOps2 V (Proc.devRef .tc main_arg9) = V (Proc.devRef .tc main_arg9) := by after_results_simp

/-! ## After the third kernel -/

set_option maxHeartbeats 4000000 in
theorem stageD_readout : after hostOps3_1 (after hostOps3 V) (Proc.devRef .tc main_v254) = Cheb.readout (V (Proc.devRef .tc main_v241)) (V (Proc.devRef .tc main_arg3)) := by
  after_results_simp <;> rfl

end Cert.KernelIdeal.HostVal

end
-- ==== Proof.Products.lean ====
/-
  A matrix product read at one entry, for the four products of this network: the node-tile products the kernel's tiles
  compute into a zero accumulator ([2000,128] · [128,128] and [2000,128] · [128,16]) and the whole products of the host program
  ([50000,128] · [128,128] and [50000,128] · [128,16]). On the extended reals each entry `(r, j)` is `Σ k, a (r, k) * b (k, j)`
  over the 128 contracted columns: the contraction's one axis is re-indexed by `Fin 128`, and the two operand indices at
  `(r, j)` and `k` are `(r, k)` and `(k, j)`.
-/
import proofs.«113539_j65317862637698_1_alg».proof.Proof.Gen.KernelIdeal
import proofs.«113539_j65317862637698_1_alg».proof.Proof.Gen.ReferenceIdeal
import Idealize.ShloMosaic.Lib.ValueIdx
import Idealize.ShloMosaic.Lib.Pipeline.Value
import Idealize.ShloMosaic.PureOps.Ideal.Laws

noncomputable section

namespace Cheb.Prod

open Idealize.ShloMosaic Idealize.ShloMosaic.ValueIdx

theorem tile128_l0 (i : Cert.KernelIdeal.S2000x128.Idx) (q : Cert.KernelIdeal.dot_S2000x128_S128x128_S2000x128_1_0_0_1_n_n.contr.Idx) : (Cert.KernelIdeal.dot_S2000x128_S128x128_S2000x128_1_0_0_1_n_n.lhsIdx i q 0).val = (i 0).val := by
  unfold DotDims.lhsIdx
  rw [dif_neg (show ¬(0 : Fin Cert.KernelIdeal.S2000x128.rank) ∈ Cert.KernelIdeal.dot_S2000x128_S128x128_S2000x128_1_0_0_1_n_n.lhsBatch by decide), dif_pos (show (0 : Fin Cert.KernelIdeal.S2000x128.rank) ∈ Cert.KernelIdeal.dot_S2000x128_S128x128_S2000x128_1_0_0_1_n_n.lhsNonContracting by decide)]
  rfl
theorem tile128_l1 (i : Cert.KernelIdeal.S2000x128.Idx) (q : Cert.KernelIdeal.dot_S2000x128_S128x128_S2000x128_1_0_0_1_n_n.contr.Idx) : (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
theorem tile128_r0 (i : Cert.KernelIdeal.S2000x128.Idx) (q : Cert.KernelIdeal.dot_S2000x128_S128x128_S2000x128_1_0_0_1_n_n.contr.Idx) : (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
theorem tile128_r1 (i : Cert.KernelIdeal.S2000x128.Idx) (q : Cert.KernelIdeal.dot_S2000x128_S128x128_S2000x128_1_0_0_1_n_n.contr.Idx) : (Cert.KernelIdeal.dot_S2000x128_S128x128_S2000x128_1_0_0_1_n_n.rhsIdx i q 1).val = (i 1).val := by
  unfold DotDims.rhsIdx
  rw [dif_neg (show ¬(1 : Fin Cert.KernelIdeal.S128x128.rank) ∈ Cert.KernelIdeal.dot_S2000x128_S128x128_S2000x128_1_0_0_1_n_n.rhsBatch by decide), dif_pos (show (1 : Fin Cert.KernelIdeal.S128x128.rank) ∈ Cert.KernelIdeal.dot_S2000x128_S128x128_S2000x128_1_0_0_1_n_n.rhsNonContracting by decide)]
  rfl
/-- Entry `(r, j)` of the product is `Σ k, a (r, k) * b (k, j)` on the extended reals. -/
theorem tile128_apply (a : FVec Ideal Cert.KernelIdeal.S2000x128 .bf16) (b : FVec Ideal Cert.KernelIdeal.S128x128 .bf16) (r : Fin 2000) (j : Fin 128) :
    matmul (F := Ideal) Cert.KernelIdeal.dot_S2000x128_S128x128_S2000x128_1_0_0_1_n_n none a b (constant Cert.KernelIdeal.S2000x128 .f32 0x00000000#32) (ix2 r j) = ∑ k : Fin 128, a (ix2 r k) * b (ix2 k j) := by
  refine (Ideal.matmul_constant_zero_apply Cert.KernelIdeal.dot_S2000x128_S128x128_S2000x128_1_0_0_1_n_n none a b (ix2 r j)).trans ?_
  rw [← Equiv.sum_comp (ValueIdx.contrEquiv1 Cert.KernelIdeal.dot_S2000x128_S128x128_S2000x128_1_0_0_1_n_n 128 rfl rfl).symm]
  refine Finset.sum_congr rfl fun k _ => ?_
  have hk := ValueIdx.contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 r j) ((ValueIdx.contrEquiv1 Cert.KernelIdeal.dot_S2000x128_S128x128_S2000x128_1_0_0_1_n_n 128 rfl rfl).symm k) = ix2 r k := funext fun a => Fin.ext (by
    match a with
    | ⟨0, _⟩ => exact tile128_l0 _ _
    | ⟨1, _⟩ => exact (tile128_l1 _ _).trans hk)
  have er : Cert.KernelIdeal.dot_S2000x128_S128x128_S2000x128_1_0_0_1_n_n.rhsIdx (ix2 r j) ((ValueIdx.contrEquiv1 Cert.KernelIdeal.dot_S2000x128_S128x128_S2000x128_1_0_0_1_n_n 128 rfl rfl).symm k) = ix2 k j := funext fun a => Fin.ext (by
    match a with
    | ⟨0, _⟩ => exact (tile128_r0 _ _).trans hk
    | ⟨1, _⟩ => exact tile128_r1 _ _)
  rw [el, er]

theorem tile16_l0 (i : Cert.KernelIdeal.S2000x16.Idx) (q : Cert.KernelIdeal.dot_S2000x128_S128x16_S2000x16_1_0_0_1_n_n.contr.Idx) : (Cert.KernelIdeal.dot_S2000x128_S128x16_S2000x16_1_0_0_1_n_n.lhsIdx i q 0).val = (i 0).val := by
  unfold DotDims.lhsIdx
  rw [dif_neg (show ¬(0 : Fin Cert.KernelIdeal.S2000x128.rank) ∈ Cert.KernelIdeal.dot_S2000x128_S128x16_S2000x16_1_0_0_1_n_n.lhsBatch by decide), dif_pos (show (0 : Fin Cert.KernelIdeal.S2000x128.rank) ∈ Cert.KernelIdeal.dot_S2000x128_S128x16_S2000x16_1_0_0_1_n_n.lhsNonContracting by decide)]
  rfl
theorem tile16_l1 (i : Cert.KernelIdeal.S2000x16.Idx) (q : Cert.KernelIdeal.dot_S2000x128_S128x16_S2000x16_1_0_0_1_n_n.contr.Idx) : (Cert.KernelIdeal.dot_S2000x128_S128x16_S2000x16_1_0_0_1_n_n.lhsIdx i q 1).val = (q ⟨0, by decide⟩).val :=
  Cert.KernelIdeal.dot_S2000x128_S128x16_S2000x16_1_0_0_1_n_n.lhsIdx_val_of_single rfl i q
theorem tile16_r0 (i : Cert.KernelIdeal.S2000x16.Idx) (q : Cert.KernelIdeal.dot_S2000x128_S128x16_S2000x16_1_0_0_1_n_n.contr.Idx) : (Cert.KernelIdeal.dot_S2000x128_S128x16_S2000x16_1_0_0_1_n_n.rhsIdx i q 0).val = (q ⟨0, by decide⟩).val :=
  Cert.KernelIdeal.dot_S2000x128_S128x16_S2000x16_1_0_0_1_n_n.rhsIdx_val_of_single rfl i q
theorem tile16_r1 (i : Cert.KernelIdeal.S2000x16.Idx) (q : Cert.KernelIdeal.dot_S2000x128_S128x16_S2000x16_1_0_0_1_n_n.contr.Idx) : (Cert.KernelIdeal.dot_S2000x128_S128x16_S2000x16_1_0_0_1_n_n.rhsIdx i q 1).val = (i 1).val := by
  unfold DotDims.rhsIdx
  rw [dif_neg (show ¬(1 : Fin Cert.KernelIdeal.S128x16.rank) ∈ Cert.KernelIdeal.dot_S2000x128_S128x16_S2000x16_1_0_0_1_n_n.rhsBatch by decide), dif_pos (show (1 : Fin Cert.KernelIdeal.S128x16.rank) ∈ Cert.KernelIdeal.dot_S2000x128_S128x16_S2000x16_1_0_0_1_n_n.rhsNonContracting by decide)]
  rfl
/-- Entry `(r, j)` of the product is `Σ k, a (r, k) * b (k, j)` on the extended reals. -/
theorem tile16_apply (a : FVec Ideal Cert.KernelIdeal.S2000x128 .bf16) (b : FVec Ideal Cert.KernelIdeal.S128x16 .bf16) (r : Fin 2000) (j : Fin 16) :
    matmul (F := Ideal) Cert.KernelIdeal.dot_S2000x128_S128x16_S2000x16_1_0_0_1_n_n none a b (constant Cert.KernelIdeal.S2000x16 .f32 0x00000000#32) (ix2 r j) = ∑ k : Fin 128, a (ix2 r k) * b (ix2 k j) := by
  refine (Ideal.matmul_constant_zero_apply Cert.KernelIdeal.dot_S2000x128_S128x16_S2000x16_1_0_0_1_n_n none a b (ix2 r j)).trans ?_
  rw [← Equiv.sum_comp (ValueIdx.contrEquiv1 Cert.KernelIdeal.dot_S2000x128_S128x16_S2000x16_1_0_0_1_n_n 128 rfl rfl).symm]
  refine Finset.sum_congr rfl fun k _ => ?_
  have hk := ValueIdx.contrEquiv1_symm_val Cert.KernelIdeal.dot_S2000x128_S128x16_S2000x16_1_0_0_1_n_n 128 rfl rfl k
  have el : Cert.KernelIdeal.dot_S2000x128_S128x16_S2000x16_1_0_0_1_n_n.lhsIdx (ix2 r j) ((ValueIdx.contrEquiv1 Cert.KernelIdeal.dot_S2000x128_S128x16_S2000x16_1_0_0_1_n_n 128 rfl rfl).symm k) = ix2 r k := funext fun a => Fin.ext (by
    match a with
    | ⟨0, _⟩ => exact tile16_l0 _ _
    | ⟨1, _⟩ => exact (tile16_l1 _ _).trans hk)
  have er : Cert.KernelIdeal.dot_S2000x128_S128x16_S2000x16_1_0_0_1_n_n.rhsIdx (ix2 r j) ((ValueIdx.contrEquiv1 Cert.KernelIdeal.dot_S2000x128_S128x16_S2000x16_1_0_0_1_n_n 128 rfl rfl).symm k) = ix2 k j := funext fun a => Fin.ext (by
    match a with
    | ⟨0, _⟩ => exact (tile16_r0 _ _).trans hk
    | ⟨1, _⟩ => exact tile16_r1 _ _)
  rw [el, er]

theorem host128_l0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem host128_l1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem host128_r0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem host128_r1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl
/-- Entry `(r, j)` of the product is `Σ k, a (r, k) * b (k, j)` on the extended reals. -/
theorem host128_apply (a : FVec Ideal Cert.ReferenceIdeal.S50000x128 .f32) (b : FVec Ideal Cert.ReferenceIdeal.S128x128 .f32) (r : Fin 50000) (j : Fin 128) :
    Host.dotGeneral (F := Ideal) Cert.ReferenceIdeal.dot_S50000x128_S128x128_S50000x128_1_0_0_1_n_n none a b (ix2 r j) = ∑ k : Fin 128, a (ix2 r k) * b (ix2 k j) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r j) ((ValueIdx.contrEquiv1 Cert.ReferenceIdeal.dot_S50000x128_S128x128_S50000x128_1_0_0_1_n_n 128 rfl rfl).symm k) = ix2 r k := funext fun a => Fin.ext (by
    match a with
    | ⟨0, _⟩ => exact host128_l0 _ _
    | ⟨1, _⟩ => exact (host128_l1 _ _).trans hk)
  have er : Cert.ReferenceIdeal.dot_S50000x128_S128x128_S50000x128_1_0_0_1_n_n.rhsIdx (ix2 r j) ((ValueIdx.contrEquiv1 Cert.ReferenceIdeal.dot_S50000x128_S128x128_S50000x128_1_0_0_1_n_n 128 rfl rfl).symm k) = ix2 k j := funext fun a => Fin.ext (by
    match a with
    | ⟨0, _⟩ => exact (host128_r0 _ _).trans hk
    | ⟨1, _⟩ => exact host128_r1 _ _)
  rw [el, er]

theorem host16_l0 (i : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x16_S50000x16_1_0_0_1_n_n.lhsBatch by decide), dif_pos (show (0 : Fin Cert.ReferenceIdeal.S50000x128.rank) ∈ Cert.ReferenceIdeal.dot_S50000x128_S128x16_S50000x16_1_0_0_1_n_n.lhsNonContracting by decide)]
  rfl
theorem host16_l1 (i : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.lhsIdx i q 1).val = (q ⟨0, by decide⟩).val :=
  Cert.ReferenceIdeal.dot_S50000x128_S128x16_S50000x16_1_0_0_1_n_n.lhsIdx_val_of_single rfl i q
theorem host16_r0 (i : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.rhsIdx i q 0).val = (q ⟨0, by decide⟩).val :=
  Cert.ReferenceIdeal.dot_S50000x128_S128x16_S50000x16_1_0_0_1_n_n.rhsIdx_val_of_single rfl i q
theorem host16_r1 (i : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.rhsIdx i q 1).val = (i 1).val := by
  unfold DotDims.rhsIdx
  rw [dif_neg (show ¬(1 : Fin Cert.ReferenceIdeal.S128x16.rank) ∈ Cert.ReferenceIdeal.dot_S50000x128_S128x16_S50000x16_1_0_0_1_n_n.rhsBatch by decide), dif_pos (show (1 : Fin Cert.ReferenceIdeal.S128x16.rank) ∈ Cert.ReferenceIdeal.dot_S50000x128_S128x16_S50000x16_1_0_0_1_n_n.rhsNonContracting by decide)]
  rfl
/-- Entry `(r, j)` of the product is `Σ k, a (r, k) * b (k, j)` on the extended reals. -/
theorem host16_apply (a : FVec Ideal Cert.ReferenceIdeal.S50000x128 .f32) (b : FVec Ideal Cert.ReferenceIdeal.S128x16 .f32) (r : Fin 50000) (j : Fin 16) :
    Host.dotGeneral (F := Ideal) Cert.ReferenceIdeal.dot_S50000x128_S128x16_S50000x16_1_0_0_1_n_n none a b (ix2 r j) = ∑ k : Fin 128, a (ix2 r k) * b (ix2 k j) := by
  simp only [Host.dotGeneral]
  rw [Ideal.dotGeneral_apply, ← Equiv.sum_comp (ValueIdx.contrEquiv1 Cert.ReferenceIdeal.dot_S50000x128_S128x16_S50000x16_1_0_0_1_n_n 128 rfl rfl).symm]
  refine Finset.sum_congr rfl fun k _ => ?_
  have hk := ValueIdx.contrEquiv1_symm_val Cert.ReferenceIdeal.dot_S50000x128_S128x16_S50000x16_1_0_0_1_n_n 128 rfl rfl k
  have el : Cert.ReferenceIdeal.dot_S50000x128_S128x16_S50000x16_1_0_0_1_n_n.lhsIdx (ix2 r j) ((ValueIdx.contrEquiv1 Cert.ReferenceIdeal.dot_S50000x128_S128x16_S50000x16_1_0_0_1_n_n 128 rfl rfl).symm k) = ix2 r k := funext fun a => Fin.ext (by
    match a with
    | ⟨0, _⟩ => exact host16_l0 _ _
    | ⟨1, _⟩ => exact (host16_l1 _ _).trans hk)
  have er : Cert.ReferenceIdeal.dot_S50000x128_S128x16_S50000x16_1_0_0_1_n_n.rhsIdx (ix2 r j) ((ValueIdx.contrEquiv1 Cert.ReferenceIdeal.dot_S50000x128_S128x16_S50000x16_1_0_0_1_n_n 128 rfl rfl).symm k) = ix2 k j := funext fun a => Fin.ext (by
    match a with
    | ⟨0, _⟩ => exact (host16_r0 _ _).trans hk
    | ⟨1, _⟩ => exact host16_r1 _ _)
  rw [el, er]

end Cheb.Prod

end
-- ==== Proof.Tiles.lean ====
/-
  What each node tile of the three combine kernels stores, read at one entry: a tile holds 2000 node rows of the five Chebyshev
  feature maps; the body multiplies each by its weight matrix into a zero accumulator, adds the five products in order starting
  from a zero array, adds the bias row, and (first two layers) clamps at zero.
-/
import proofs.«113539_j65317862637698_1_alg».proof.Proof.Gen.KernelIdeal.Skeleton
import proofs.«113539_j65317862637698_1_alg».proof.Proof.Products
import Idealize.ShloMosaic.Lib.ValueLayout

noncomputable section

namespace Cert.KernelIdeal.Tiles

open Cert.KernelIdeal Cert.KernelIdeal.Gen Idealize.ShloMosaic Idealize.ShloMosaic.ValueIdx

/-- Entry `(r, j)` of what the layer-1 tile stores: the five products of the tile's node rows with the weight matrices, summed into a
    zero start in order, plus the bias, clamped at zero. The rounding of the operands to bf16 is the identity on the extended reals. -/
theorem tile0_entry (x0 x1 x2 x3 x4 : Vec Ideal S2000x128 .f32) (u0 u1 u2 u3 u4 : Vec Ideal S128x128 .f32) (b : Vec Ideal S128 .f32)
    (r : Fin 2000) (j : Fin 128) :
    k0_pay1 (F := Ideal) (k0_pay2 x0 u0 x1 u1 x2 u2 x3 u3) (k0_pay3 x4) u4 b (ix2 r j)
      = max ((((((∑ k : Fin 128, x0 (ix2 r k) * u0 (ix2 k j)) + ∑ k : Fin 128, x1 (ix2 r k) * u1 (ix2 k j)) + ∑ k : Fin 128, x2 (ix2 r k) * u2 (ix2 k j)) + ∑ k : Fin 128, x3 (ix2 r k) * u3 (ix2 k j)) + ∑ k : Fin 128, x4 (ix2 r k) * u4 (ix2 k j)) + b (ix1 j)) 0 := by
  unfold k0_pay1 k0_pay2 k0_pay3
  simp only [shapeCast_self, maximumf_apply, addf_apply, broadcast_apply, Cheb.Prod.tile128_apply, truncf_apply,
    broadcastTo_1b_ab_apply, shapeCast_a_1a_apply]
  simp only [Scalar.ofBits, Ideal.ofBits_def, Ideal.ofBits_zero_f32, zero_add]

/-- Entry `(r, j)` of what the layer-2 tile stores: the five products of the tile's node rows with the weight matrices, summed into a
    zero start in order, plus the bias, clamped at zero. The rounding of the operands to bf16 is the identity on the extended reals. -/
theorem tile1_entry (x0 x1 x2 x3 x4 : Vec Ideal S2000x128 .f32) (u0 u1 u2 u3 u4 : Vec Ideal S128x128 .f32) (b : Vec Ideal S128 .f32)
    (r : Fin 2000) (j : Fin 128) :
    k1_pay1 (F := Ideal) (k1_pay2 x0 u0 x1 u1 x2 u2 x3 u3) (k1_pay3 x4) u4 b (ix2 r j)
      = max ((((((∑ k : Fin 128, x0 (ix2 r k) * u0 (ix2 k j)) + ∑ k : Fin 128, x1 (ix2 r k) * u1 (ix2 k j)) + ∑ k : Fin 128, x2 (ix2 r k) * u2 (ix2 k j)) + ∑ k : Fin 128, x3 (ix2 r k) * u3 (ix2 k j)) + ∑ k : Fin 128, x4 (ix2 r k) * u4 (ix2 k j)) + b (ix1 j)) 0 := by
  unfold k1_pay1 k1_pay2 k1_pay3
  simp only [shapeCast_self, maximumf_apply, addf_apply, broadcast_apply, Cheb.Prod.tile128_apply, truncf_apply,
    broadcastTo_1b_ab_apply, shapeCast_a_1a_apply]
  simp only [Scalar.ofBits, Ideal.ofBits_def, Ideal.ofBits_zero_f32, zero_add]

/-- Entry `(r, j)` of what the layer-3 tile stores: the five products of the tile's node rows with the weight matrices, summed into a
    zero start in order, plus the bias. The rounding of the operands to bf16 is the identity on the extended reals. -/
theorem tile2_entry (x0 x1 x2 x3 x4 : Vec Ideal S2000x128 .f32) (u0 u1 u2 u3 u4 : Vec Ideal S128x16 .f32) (b : Vec Ideal S16 .f32)
    (r : Fin 2000) (j : Fin 16) :
    k2_pay1 (F := Ideal) (k2_pay2 x0 u0 x1 u1 x2 u2 x3 u3) (k2_pay3 x4) u4 b (ix2 r j)
      = (((((∑ k : Fin 128, x0 (ix2 r k) * u0 (ix2 k j)) + ∑ k : Fin 128, x1 (ix2 r k) * u1 (ix2 k j)) + ∑ k : Fin 128, x2 (ix2 r k) * u2 (ix2 k j)) + ∑ k : Fin 128, x3 (ix2 r k) * u3 (ix2 k j)) + ∑ k : Fin 128, x4 (ix2 r k) * u4 (ix2 k j)) + b (ix1 j) := by
  unfold k2_pay1 k2_pay2 k2_pay3
  simp only [shapeCast_self, maximumf_apply, addf_apply, broadcast_apply, Cheb.Prod.tile16_apply, truncf_apply,
    broadcastTo_1b_ab_apply, shapeCast_a_1a_apply]
  simp only [Scalar.ofBits, Ideal.ofBits_def, Ideal.ofBits_zero_f32, zero_add]

end Cert.KernelIdeal.Tiles

end
-- ==== Proof.LayerIdx.lean ====
/-
  A layer's result read at one entry. With `t0 … t4` the five Chebyshev feature maps, `u0 … u4` the five weight matrices and `b` the
  bias, entry `(i, j)` of `t0·u0 + t1·u1 + t2·u2 + t3·u3 + t4·u4 + b` is
  `((((Σ k, t0 (i,k) * u0 (k,j)) + Σ k, t1 (i,k) * u1 (k,j)) + …) + Σ k, t4 (i,k) * u4 (k,j)) + b j` on the extended reals, summed in
  that order; the hidden layers take `max · 0` of it.
-/
import proofs.«113539_j65317862637698_1_alg».proof.Proof.Spec
import proofs.«113539_j65317862637698_1_alg».proof.Proof.Products

noncomputable section

namespace Cheb

open Cert.ReferenceIdeal Cert.ReferenceIdeal.Gen Idealize.ShloMosaic Idealize.ShloMosaic.ValueIdx

/-- A bias row `[128]` laid out as `[1, 128]` and repeated down the 50000 node rows reads, at `(i, j)`, the bias at `j`. -/
theorem bias128_apply (b : FVec Ideal S128 .f32) (i : Fin 50000) (j : Fin 128) :
    broadcastInDim S50000x128 ![0, 1] bcast_S1x128_S50000x128_0_1 (broadcastInDim S1x128 ![1] bcast_S128_S1x128_1 b) (ix2 i j) = b (ix1 j) := by
  refine (broadcastInDim_apply _ _ _ (ix2 i j) (ix2 (0 : Fin 1) j) fun a => ?_).trans
    (broadcastInDim_apply _ _ b (ix2 (0 : Fin 1) j) (ix1 j) fun a => ?_)
  · match a with
    | ⟨0, _⟩ => rfl
    | ⟨1, _⟩ => rfl
  · match a with
    | ⟨0, _⟩ => rfl

/-- The same for the output layer's `[16]` bias. -/
theorem bias16_apply (b : FVec Ideal S16 .f32) (i : Fin 50000) (j : Fin 16) :
    broadcastInDim S50000x16 ![0, 1] bcast_S1x16_S50000x16_0_1 (broadcastInDim S1x16 ![1] bcast_S16_S1x16_1 b) (ix2 i j) = b (ix1 j) := by
  refine (broadcastInDim_apply _ _ _ (ix2 i j) (ix2 (0 : Fin 1) j) fun a => ?_).trans
    (broadcastInDim_apply _ _ b (ix2 (0 : Fin 1) j) (ix1 j) fun a => ?_)
  · match a with
    | ⟨0, _⟩ => rfl
    | ⟨1, _⟩ => rfl
  · match a with
    | ⟨0, _⟩ => rfl

/-- The zero array a hidden layer is clamped against reads zero everywhere. -/
theorem zeros_apply (i : S50000x128.Idx) :
    broadcastInDim S50000x128 ![] bcast_S_S50000x128 (constant (F := Ideal) S_ .f32 0x00000000#32) i = 0 := by
  refine (broadcastInDim_apply _ _ _ i ix0 fun a => a.elim0).trans ?_
  exact Ideal.ofBits_zero_f32

/-- A hidden layer at entry `(i, j)`. -/
theorem hidden_entry (t0 t1 t2 t3 t4 : FVec Ideal S50000x128 .f32) (u0 u1 u2 u3 u4 : FVec Ideal S128x128 .f32) (b : FVec Ideal S128 .f32)
    (i : Fin 50000) (j : Fin 128) :
    clamp (F := Ideal) (combine128 t0 t1 t2 t3 t4 u0 u1 u2 u3 u4 b) (ix2 i j)
      = max ((((((∑ k : Fin 128, t0 (ix2 i k) * u0 (ix2 k j)) + ∑ k : Fin 128, t1 (ix2 i k) * u1 (ix2 k j)) + ∑ k : Fin 128, t2 (ix2 i k) * u2 (ix2 k j)) + ∑ k : Fin 128, t3 (ix2 i k) * u3 (ix2 k j)) + ∑ k : Fin 128, t4 (ix2 i k) * u4 (ix2 k j)) + b (ix1 j)) 0 := by
  unfold clamp combine128
  simp only [maximumf_apply, addf_apply, Prod.host128_apply]
  rw [bias128_apply b i j, zeros_apply (ix2 i j)]

/-- The output layer at entry `(i, j)`. -/
theorem output_entry (t0 t1 t2 t3 t4 : FVec Ideal S50000x128 .f32) (u0 u1 u2 u3 u4 : FVec Ideal S128x16 .f32) (b : FVec Ideal S16 .f32)
    (i : Fin 50000) (j : Fin 16) :
    combine16 (F := Ideal) t0 t1 t2 t3 t4 u0 u1 u2 u3 u4 b (ix2 i j)
      = (((((∑ k : Fin 128, t0 (ix2 i k) * u0 (ix2 k j)) + ∑ k : Fin 128, t1 (ix2 i k) * u1 (ix2 k j)) + ∑ k : Fin 128, t2 (ix2 i k) * u2 (ix2 k j)) + ∑ k : Fin 128, t3 (ix2 i k) * u3 (ix2 k j)) + ∑ k : Fin 128, t4 (ix2 i k) * u4 (ix2 k j)) + b (ix1 j) := by
  unfold combine16
  simp only [addf_apply, Prod.host16_apply]
  rw [bias16_apply b i j]

end Cheb

end
-- ==== Proof.Layer1.lean ====
/-
  Layer 1's combine kernel as one function of its eleven operand arrays. The grid has 25 points; point `t` reads rows
  `2000·t … 2000·t + 1999` of each of the five feature maps, the five weight matrices and the bias whole, and writes the same rows of
  the result. Entry `(r, j)` of what it writes is the tile's sum of products (`Tiles.tile0_entry`), which is entry
  `(2000·t + r, j)` of the layer's whole-array sum of products (`Cheb.hidden_entry`); the 25 row blocks cover the array, so after
  the run the result array is that function of the operand arrays as the region found them.
-/
import proofs.«113539_j65317862637698_1_alg».proof.Proof.Gen.KernelIdeal.Frame
import proofs.«113539_j65317862637698_1_alg».proof.Proof.Tiles
import proofs.«113539_j65317862637698_1_alg».proof.Proof.LayerIdx

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the feature maps and the result move down the rows with the point, the weight
    matrices and the bias stay. -/
theorem idx_facts : ∀ t : Fin cfg0.N, win0_0.index t (0 : Fin 2) = win0_11.index t (0 : Fin 2)
    ∧ win0_0.index t (1 : Fin 2) = 0
    ∧ win0_1.index t (0 : Fin 2) = win0_11.index t (0 : Fin 2)
    ∧ win0_1.index t (1 : Fin 2) = 0
    ∧ win0_2.index t (0 : Fin 2) = win0_11.index t (0 : Fin 2)
    ∧ win0_2.index t (1 : Fin 2) = 0
    ∧ win0_3.index t (0 : Fin 2) = win0_11.index t (0 : Fin 2)
    ∧ win0_3.index t (1 : Fin 2) = 0
    ∧ win0_4.index t (0 : Fin 2) = win0_11.index t (0 : Fin 2)
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 1) = 0
    ∧ win0_11.index t (1 : Fin 2) = 0
    ∧ win0_11.index t (0 : Fin 2) ≤ 24 :=
  (by decide +kernel : ∀ t : Fin grid0.N, _)

/-- Every row block is some point's. -/
theorem idx_onto : ∀ q : Fin 25, ∃ t : Fin cfg0.N, win0_11.index t = ![q.val, 0] :=
  (by decide +kernel : ∀ q : Fin 25, ∃ t : Fin grid0.N, win0_11.index t = ![q.val, 0])

/-- The layer's result as one function of the operand arrays the region finds. -/
abbrev G : S50000x128.Idx → Elt Ideal .f32 := Cheb.clamp (Cheb.combine128 (V c main_arg0) (V c main_v38) (V c main_v54) (V c main_v70) (V c main_v86) (V c main_v88) (V c main_v90) (V c main_v92) (V c main_v94) (V c main_v96) (V c main_arg5))

/-- Row `r` of window 0's block at point `t` is row `2000 · t + r` of its array. -/
theorem rd0 (t : Fin cfg0.N) (r : Fin 2000) (k : Fin 128) (p : Fin 50000) (hp : p.val = win0_11.index t (0 : Fin 2) * 2000 + r.val) :
    iblk0 V c 0 t (ix2 r k) = V c main_arg0 (ix2 p k) := by
  show V c main_arg0 (((cfg0.win 0).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_0.index t (0 : Fin 2) * 2000 + 1 * r.val = p.val; omega
  | ⟨1, _⟩ => show win0_0.index t (1 : Fin 2) * 128 + 1 * k.val = k.val; omega

/-- Row `r` of window 1's block at point `t` is row `2000 · t + r` of its array. -/
theorem rd1 (t : Fin cfg0.N) (r : Fin 2000) (k : Fin 128) (p : Fin 50000) (hp : p.val = win0_11.index t (0 : Fin 2) * 2000 + r.val) :
    iblk0 V c 1 t (ix2 r k) = V c main_v38 (ix2 p k) := by
  show V c main_v38 (((cfg0.win 1).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_1.index t (0 : Fin 2) * 2000 + 1 * r.val = p.val; omega
  | ⟨1, _⟩ => show win0_1.index t (1 : Fin 2) * 128 + 1 * k.val = k.val; omega

/-- Row `r` of window 2's block at point `t` is row `2000 · t + r` of its array. -/
theorem rd2 (t : Fin cfg0.N) (r : Fin 2000) (k : Fin 128) (p : Fin 50000) (hp : p.val = win0_11.index t (0 : Fin 2) * 2000 + r.val) :
    iblk0 V c 2 t (ix2 r k) = V c main_v54 (ix2 p k) := by
  show V c main_v54 (((cfg0.win 2).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_2.index t (0 : Fin 2) * 2000 + 1 * r.val = p.val; omega
  | ⟨1, _⟩ => show win0_2.index t (1 : Fin 2) * 128 + 1 * k.val = k.val; omega

/-- Row `r` of window 3's block at point `t` is row `2000 · t + r` of its array. -/
theorem rd3 (t : Fin cfg0.N) (r : Fin 2000) (k : Fin 128) (p : Fin 50000) (hp : p.val = win0_11.index t (0 : Fin 2) * 2000 + r.val) :
    iblk0 V c 3 t (ix2 r k) = V c main_v70 (ix2 p k) := by
  show V c main_v70 (((cfg0.win 3).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_3.index t (0 : Fin 2) * 2000 + 1 * r.val = p.val; omega
  | ⟨1, _⟩ => show win0_3.index t (1 : Fin 2) * 128 + 1 * k.val = k.val; omega

/-- Row `r` of window 4's block at point `t` is row `2000 · t + r` of its array. -/
theorem rd4 (t : Fin cfg0.N) (r : Fin 2000) (k : Fin 128) (p : Fin 50000) (hp : p.val = win0_11.index t (0 : Fin 2) * 2000 + r.val) :
    iblk0 V c 4 t (ix2 r k) = V c main_v86 (ix2 p k) := by
  show V c main_v86 (((cfg0.win 4).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_4.index t (0 : Fin 2) * 2000 + 1 * r.val = p.val; omega
  | ⟨1, _⟩ => show win0_4.index t (1 : Fin 2) * 128 + 1 * k.val = k.val; omega

/-- Window 5's block is its whole weight matrix at every point. -/
theorem rd5 (t : Fin cfg0.N) (k : Fin 128) (j : Fin 128) : iblk0 V c 5 t (ix2 k j) = V c main_v88 (ix2 k j) := by
  show V c main_v88 (((cfg0.win 5).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_5.index t (0 : Fin 2) * 128 + 1 * k.val = k.val; omega
  | ⟨1, _⟩ => show win0_5.index t (1 : Fin 2) * 128 + 1 * j.val = j.val; omega

/-- Window 6's block is its whole weight matrix at every point. -/
theorem rd6 (t : Fin cfg0.N) (k : Fin 128) (j : Fin 128) : iblk0 V c 6 t (ix2 k j) = V c main_v90 (ix2 k j) := by
  show V c main_v90 (((cfg0.win 6).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_6.index t (0 : Fin 2) * 128 + 1 * k.val = k.val; omega
  | ⟨1, _⟩ => show win0_6.index t (1 : Fin 2) * 128 + 1 * j.val = j.val; omega

/-- Window 7's block is its whole weight matrix at every point. -/
theorem rd7 (t : Fin cfg0.N) (k : Fin 128) (j : Fin 128) : iblk0 V c 7 t (ix2 k j) = V c main_v92 (ix2 k j) := by
  show V c main_v92 (((cfg0.win 7).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_7.index t (0 : Fin 2) * 128 + 1 * k.val = k.val; omega
  | ⟨1, _⟩ => show win0_7.index t (1 : Fin 2) * 128 + 1 * j.val = j.val; omega

/-- Window 8's block is its whole weight matrix at every point. -/
theorem rd8 (t : Fin cfg0.N) (k : Fin 128) (j : Fin 128) : iblk0 V c 8 t (ix2 k j) = V c main_v94 (ix2 k j) := by
  show V c main_v94 (((cfg0.win 8).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_8.index t (0 : Fin 2) * 128 + 1 * k.val = k.val; omega
  | ⟨1, _⟩ => show win0_8.index t (1 : Fin 2) * 128 + 1 * j.val = j.val; omega

/-- Window 9's block is its whole weight matrix at every point. -/
theorem rd9 (t : Fin cfg0.N) (k : Fin 128) (j : Fin 128) : iblk0 V c 9 t (ix2 k j) = V c main_v96 (ix2 k j) := by
  show V c main_v96 (((cfg0.win 9).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_9.index t (0 : Fin 2) * 128 + 1 * k.val = k.val; omega
  | ⟨1, _⟩ => show win0_9.index t (1 : Fin 2) * 128 + 1 * j.val = j.val; omega

/-- The bias window's block is the whole bias. -/
theorem rd10 (t : Fin cfg0.N) (j : Fin 128) : iblk0 V c 10 t (ix1 j) = V c main_arg5 (ix1 j) := by
  show V c main_arg5 (((cfg0.win 10).blk t).view.emb (ix1 j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_10.index t (0 : Fin 1) * 128 + 1 * j.val = j.val; omega

/-- What point `t` writes back is block `t` of `G`. -/
theorem flushed_eq (t : Fin cfg0.N) :
    (dat0 V c).flushed 11 t = ((cfg0.win 11).blk t).view.read (Elt Ideal) (G V c) := by
  show (cfg0.win 11).cut (grid0.coords t) ((dat0 V c).after 11 t) = _
  rw [after0_11]
  unfold out0_11
  rw [View.canon_unit_zero hz2]
  simp only [View.ld_unit_zero (S := S2000x128) hz2, View.ld_unit_zero (S := S128x128) hz2, View.ld_unit_zero (S := S128) hz1]
  funext y
  obtain ⟨r, j, rfl⟩ : ∃ (r : Fin 2000) (j : Fin 128), y = ix2 r j := ⟨y 0, y 1, eq_ix2 y⟩
  obtain ⟨e0, e1, e2, e3, e4, e5, e6, e7, e8, e9, e10, e11, e12, e13, e14, e15, e16, e17, e18, e19, e20, e21, e22⟩ := idx_facts t
  have hr : r.val < 2000 := r.isLt
  let p : Fin 50000 := ⟨win0_11.index t (0 : Fin 2) * 2000 + r.val, by omega⟩
  have hi : ((cfg0.win 11).blk t).view.emb (ix2 r j) = ix2 p j := funext fun a => Fin.ext (by
    match a with
    | ⟨0, _⟩ => show win0_11.index t (0 : Fin 2) * 2000 + 1 * r.val = win0_11.index t (0 : Fin 2) * 2000 + r.val; omega
    | ⟨1, _⟩ => show win0_11.index t (1 : Fin 2) * 128 + 1 * j.val = j.val; omega)
  refine (Tiles.tile0_entry (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) r j).trans ?_
  show _ = G V c (((cfg0.win 11).blk t).view.emb (ix2 r j))
  rw [hi]
  unfold G
  rw [Cheb.hidden_entry]
  simp only [rd0 V c t r _ p rfl, rd1 V c t r _ p rfl, rd2 V c t r _ p rfl, rd3 V c t r _ p rfl, rd4 V c t r _ p rfl,
    rd5 V c t, rd6 V c t, rd7 V c t, rd8 V c t, rd9 V c t, rd10 V c t]

/-- An index of the array is in point `t`'s block iff each coordinate is in the block's range on its axis. -/
theorem mem_blk (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v97).slice (win0_11.rect t)).set ↔ _
  rw [View.set_slice_whole, Rect.mem_set_unit]
  exact Iff.rfl

/-- The row blocks cover the array: row `i` is in the block of point `i / 2000`. -/
theorem cover (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  obtain ⟨t, ht⟩ := idx_onto ⟨(i 0).val / 2000, by omega⟩
  have q0 : win0_11.index t (0 : Fin 2) = (i 0).val / 2000 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 128 ≤ (i 1).val ∧ (i 1).val < win0_11.index t (1 : Fin 2) * 128 + 128; omega

/-- The result array after the region's run. -/
theorem final : (dat0 V c).arrAt 11 cfg0.N = G V c :=
  (dat0 V c).arrAt_eq_of_cover 11 (G V c) (fun t _ => flushed_eq V c t) (cover)

end Cert.KernelIdeal.Layer1

end
-- ==== Proof.Layer2.lean ====
/-
  Layer 2's combine kernel as one function of its eleven operand arrays. The grid has 25 points; point `t` reads rows
  `2000·t … 2000·t + 1999` of each of the five feature maps, the five weight matrices and the bias whole, and writes the same rows of
  the result. Entry `(r, j)` of what it writes is the tile's sum of products (`Tiles.tile1_entry`), which is entry
  `(2000·t + r, j)` of the layer's whole-array sum of products (`Cheb.hidden_entry`); the 25 row blocks cover the array, so after
  the run the result array is that function of the operand arrays as the region found them.
-/
import proofs.«113539_j65317862637698_1_alg».proof.Proof.Gen.KernelIdeal.Frame
import proofs.«113539_j65317862637698_1_alg».proof.Proof.Tiles
import proofs.«113539_j65317862637698_1_alg».proof.Proof.LayerIdx

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the feature maps and the result move down the rows with the point, the weight
    matrices and the bias stay. -/
theorem idx_facts : ∀ t : Fin cfg1.N, win1_0.index t (0 : Fin 2) = win1_11.index t (0 : Fin 2)
    ∧ win1_0.index t (1 : Fin 2) = 0
    ∧ win1_1.index t (0 : Fin 2) = win1_11.index t (0 : Fin 2)
    ∧ win1_1.index t (1 : Fin 2) = 0
    ∧ win1_2.index t (0 : Fin 2) = win1_11.index t (0 : Fin 2)
    ∧ win1_2.index t (1 : Fin 2) = 0
    ∧ win1_3.index t (0 : Fin 2) = win1_11.index t (0 : Fin 2)
    ∧ win1_3.index t (1 : Fin 2) = 0
    ∧ win1_4.index t (0 : Fin 2) = win1_11.index t (0 : Fin 2)
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 1) = 0
    ∧ win1_11.index t (1 : Fin 2) = 0
    ∧ win1_11.index t (0 : Fin 2) ≤ 24 :=
  (by decide +kernel : ∀ t : Fin grid1.N, _)

/-- Every row block is some point's. -/
theorem idx_onto : ∀ q : Fin 25, ∃ t : Fin cfg1.N, win1_11.index t = ![q.val, 0] :=
  (by decide +kernel : ∀ q : Fin 25, ∃ t : Fin grid1.N, win1_11.index t = ![q.val, 0])

/-- The layer's result as one function of the operand arrays the region finds. -/
abbrev G : S50000x128.Idx → Elt Ideal .f32 := Cheb.clamp (Cheb.combine128 (V c main_v97) (V c main_v110) (V c main_v126) (V c main_v142) (V c main_v158) (V c main_v160) (V c main_v162) (V c main_v164) (V c main_v166) (V c main_v168) (V c main_arg7))

/-- Row `r` of window 0's block at point `t` is row `2000 · t + r` of its array. -/
theorem rd0 (t : Fin cfg1.N) (r : Fin 2000) (k : Fin 128) (p : Fin 50000) (hp : p.val = win1_11.index t (0 : Fin 2) * 2000 + r.val) :
    iblk1 V c 0 t (ix2 r k) = V c main_v97 (ix2 p k) := by
  show V c main_v97 (((cfg1.win 0).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_0.index t (0 : Fin 2) * 2000 + 1 * r.val = p.val; omega
  | ⟨1, _⟩ => show win1_0.index t (1 : Fin 2) * 128 + 1 * k.val = k.val; omega

/-- Row `r` of window 1's block at point `t` is row `2000 · t + r` of its array. -/
theorem rd1 (t : Fin cfg1.N) (r : Fin 2000) (k : Fin 128) (p : Fin 50000) (hp : p.val = win1_11.index t (0 : Fin 2) * 2000 + r.val) :
    iblk1 V c 1 t (ix2 r k) = V c main_v110 (ix2 p k) := by
  show V c main_v110 (((cfg1.win 1).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_1.index t (0 : Fin 2) * 2000 + 1 * r.val = p.val; omega
  | ⟨1, _⟩ => show win1_1.index t (1 : Fin 2) * 128 + 1 * k.val = k.val; omega

/-- Row `r` of window 2's block at point `t` is row `2000 · t + r` of its array. -/
theorem rd2 (t : Fin cfg1.N) (r : Fin 2000) (k : Fin 128) (p : Fin 50000) (hp : p.val = win1_11.index t (0 : Fin 2) * 2000 + r.val) :
    iblk1 V c 2 t (ix2 r k) = V c main_v126 (ix2 p k) := by
  show V c main_v126 (((cfg1.win 2).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_2.index t (0 : Fin 2) * 2000 + 1 * r.val = p.val; omega
  | ⟨1, _⟩ => show win1_2.index t (1 : Fin 2) * 128 + 1 * k.val = k.val; omega

/-- Row `r` of window 3's block at point `t` is row `2000 · t + r` of its array. -/
theorem rd3 (t : Fin cfg1.N) (r : Fin 2000) (k : Fin 128) (p : Fin 50000) (hp : p.val = win1_11.index t (0 : Fin 2) * 2000 + r.val) :
    iblk1 V c 3 t (ix2 r k) = V c main_v142 (ix2 p k) := by
  show V c main_v142 (((cfg1.win 3).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_3.index t (0 : Fin 2) * 2000 + 1 * r.val = p.val; omega
  | ⟨1, _⟩ => show win1_3.index t (1 : Fin 2) * 128 + 1 * k.val = k.val; omega

/-- Row `r` of window 4's block at point `t` is row `2000 · t + r` of its array. -/
theorem rd4 (t : Fin cfg1.N) (r : Fin 2000) (k : Fin 128) (p : Fin 50000) (hp : p.val = win1_11.index t (0 : Fin 2) * 2000 + r.val) :
    iblk1 V c 4 t (ix2 r k) = V c main_v158 (ix2 p k) := by
  show V c main_v158 (((cfg1.win 4).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_4.index t (0 : Fin 2) * 2000 + 1 * r.val = p.val; omega
  | ⟨1, _⟩ => show win1_4.index t (1 : Fin 2) * 128 + 1 * k.val = k.val; omega

/-- Window 5's block is its whole weight matrix at every point. -/
theorem rd5 (t : Fin cfg1.N) (k : Fin 128) (j : Fin 128) : iblk1 V c 5 t (ix2 k j) = V c main_v160 (ix2 k j) := by
  show V c main_v160 (((cfg1.win 5).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_5.index t (0 : Fin 2) * 128 + 1 * k.val = k.val; omega
  | ⟨1, _⟩ => show win1_5.index t (1 : Fin 2) * 128 + 1 * j.val = j.val; omega

/-- Window 6's block is its whole weight matrix at every point. -/
theorem rd6 (t : Fin cfg1.N) (k : Fin 128) (j : Fin 128) : iblk1 V c 6 t (ix2 k j) = V c main_v162 (ix2 k j) := by
  show V c main_v162 (((cfg1.win 6).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_6.index t (0 : Fin 2) * 128 + 1 * k.val = k.val; omega
  | ⟨1, _⟩ => show win1_6.index t (1 : Fin 2) * 128 + 1 * j.val = j.val; omega

/-- Window 7's block is its whole weight matrix at every point. -/
theorem rd7 (t : Fin cfg1.N) (k : Fin 128) (j : Fin 128) : iblk1 V c 7 t (ix2 k j) = V c main_v164 (ix2 k j) := by
  show V c main_v164 (((cfg1.win 7).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_7.index t (0 : Fin 2) * 128 + 1 * k.val = k.val; omega
  | ⟨1, _⟩ => show win1_7.index t (1 : Fin 2) * 128 + 1 * j.val = j.val; omega

/-- Window 8's block is its whole weight matrix at every point. -/
theorem rd8 (t : Fin cfg1.N) (k : Fin 128) (j : Fin 128) : iblk1 V c 8 t (ix2 k j) = V c main_v166 (ix2 k j) := by
  show V c main_v166 (((cfg1.win 8).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_8.index t (0 : Fin 2) * 128 + 1 * k.val = k.val; omega
  | ⟨1, _⟩ => show win1_8.index t (1 : Fin 2) * 128 + 1 * j.val = j.val; omega

/-- Window 9's block is its whole weight matrix at every point. -/
theorem rd9 (t : Fin cfg1.N) (k : Fin 128) (j : Fin 128) : iblk1 V c 9 t (ix2 k j) = V c main_v168 (ix2 k j) := by
  show V c main_v168 (((cfg1.win 9).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_9.index t (0 : Fin 2) * 128 + 1 * k.val = k.val; omega
  | ⟨1, _⟩ => show win1_9.index t (1 : Fin 2) * 128 + 1 * j.val = j.val; omega

/-- The bias window's block is the whole bias. -/
theorem rd10 (t : Fin cfg1.N) (j : Fin 128) : iblk1 V c 10 t (ix1 j) = V c main_arg7 (ix1 j) := by
  show V c main_arg7 (((cfg1.win 10).blk t).view.emb (ix1 j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_10.index t (0 : Fin 1) * 128 + 1 * j.val = j.val; omega

/-- What point `t` writes back is block `t` of `G`. -/
theorem flushed_eq (t : Fin cfg1.N) :
    (dat1 V c).flushed 11 t = ((cfg1.win 11).blk t).view.read (Elt Ideal) (G V c) := by
  show (cfg1.win 11).cut (grid1.coords t) ((dat1 V c).after 11 t) = _
  rw [after1_11]
  unfold out1_11
  rw [View.canon_unit_zero hz2]
  simp only [View.ld_unit_zero (S := S2000x128) hz2, View.ld_unit_zero (S := S128x128) hz2, View.ld_unit_zero (S := S128) hz1]
  funext y
  obtain ⟨r, j, rfl⟩ : ∃ (r : Fin 2000) (j : Fin 128), y = ix2 r j := ⟨y 0, y 1, eq_ix2 y⟩
  obtain ⟨e0, e1, e2, e3, e4, e5, e6, e7, e8, e9, e10, e11, e12, e13, e14, e15, e16, e17, e18, e19, e20, e21, e22⟩ := idx_facts t
  have hr : r.val < 2000 := r.isLt
  let p : Fin 50000 := ⟨win1_11.index t (0 : Fin 2) * 2000 + r.val, by omega⟩
  have hi : ((cfg1.win 11).blk t).view.emb (ix2 r j) = ix2 p j := funext fun a => Fin.ext (by
    match a with
    | ⟨0, _⟩ => show win1_11.index t (0 : Fin 2) * 2000 + 1 * r.val = win1_11.index t (0 : Fin 2) * 2000 + r.val; omega
    | ⟨1, _⟩ => show win1_11.index t (1 : Fin 2) * 128 + 1 * j.val = j.val; omega)
  refine (Tiles.tile1_entry (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) r j).trans ?_
  show _ = G V c (((cfg1.win 11).blk t).view.emb (ix2 r j))
  rw [hi]
  unfold G
  rw [Cheb.hidden_entry]
  simp only [rd0 V c t r _ p rfl, rd1 V c t r _ p rfl, rd2 V c t r _ p rfl, rd3 V c t r _ p rfl, rd4 V c t r _ p rfl,
    rd5 V c t, rd6 V c t, rd7 V c t, rd8 V c t, rd9 V c t, rd10 V c t]

/-- An index of the array is in point `t`'s block iff each coordinate is in the block's range on its axis. -/
theorem mem_blk (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v169).slice (win1_11.rect t)).set ↔ _
  rw [View.set_slice_whole, Rect.mem_set_unit]
  exact Iff.rfl

/-- The row blocks cover the array: row `i` is in the block of point `i / 2000`. -/
theorem cover (i : S50000x128.Idx) : ∃ t : Fin cfg1.N, (cfg1.win 11).flush t = true ∧ i ∈ ((cfg1.win 11).blk t).view.set := by
  have hi0 : (i 0).val < 50000 := (i 0).isLt
  have hi1 : (i 1).val < 128 := (i 1).isLt
  obtain ⟨t, ht⟩ := idx_onto ⟨(i 0).val / 2000, by omega⟩
  have q0 : win1_11.index t (0 : Fin 2) = (i 0).val / 2000 := congrFun ht 0
  have q1 : win1_11.index t (1 : Fin 2) = 0 := congrFun ht 1
  refine ⟨t, flush1_11 t, ?_⟩
  rw [mem_blk]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 128 ≤ (i 1).val ∧ (i 1).val < win1_11.index t (1 : Fin 2) * 128 + 128; omega

/-- The result array after the region's run. -/
theorem final : (dat1 V c).arrAt 11 cfg1.N = G V c :=
  (dat1 V c).arrAt_eq_of_cover 11 (G V c) (fun t _ => flushed_eq V c t) (cover)

end Cert.KernelIdeal.Layer2

end
-- ==== Proof.Layer3.lean ====
/-
  Layer 3's combine kernel as one function of its eleven operand arrays. The grid has 25 points; point `t` reads rows
  `2000·t … 2000·t + 1999` of each of the five feature maps, the five weight matrices and the bias whole, and writes the same rows of
  the result. Entry `(r, j)` of what it writes is the tile's sum of products (`Tiles.tile2_entry`), which is entry
  `(2000·t + r, j)` of the layer's whole-array sum of products (`Cheb.output_entry`); the 25 row blocks cover the array, so after
  the run the result array is that function of the operand arrays as the region found them.
-/
import proofs.«113539_j65317862637698_1_alg».proof.Proof.Gen.KernelIdeal.Frame
import proofs.«113539_j65317862637698_1_alg».proof.Proof.Tiles
import proofs.«113539_j65317862637698_1_alg».proof.Proof.LayerIdx

set_option maxRecDepth 16384

noncomputable section

namespace Cert.KernelIdeal.Layer3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the feature maps and the result move down the rows with the point, the weight
    matrices and the bias stay. -/
theorem idx_facts : ∀ t : Fin cfg2.N, win2_0.index t (0 : Fin 2) = win2_11.index t (0 : Fin 2)
    ∧ win2_0.index t (1 : Fin 2) = 0
    ∧ win2_1.index t (0 : Fin 2) = win2_11.index t (0 : Fin 2)
    ∧ win2_1.index t (1 : Fin 2) = 0
    ∧ win2_2.index t (0 : Fin 2) = win2_11.index t (0 : Fin 2)
    ∧ win2_2.index t (1 : Fin 2) = 0
    ∧ win2_3.index t (0 : Fin 2) = win2_11.index t (0 : Fin 2)
    ∧ win2_3.index t (1 : Fin 2) = 0
    ∧ win2_4.index t (0 : Fin 2) = win2_11.index t (0 : Fin 2)
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 1) = 0
    ∧ win2_11.index t (1 : Fin 2) = 0
    ∧ win2_11.index t (0 : Fin 2) ≤ 24 :=
  (by decide +kernel : ∀ t : Fin grid2.N, _)

/-- Every row block is some point's. -/
theorem idx_onto : ∀ q : Fin 25, ∃ t : Fin cfg2.N, win2_11.index t = ![q.val, 0] :=
  (by decide +kernel : ∀ q : Fin 25, ∃ t : Fin grid2.N, win2_11.index t = ![q.val, 0])

/-- The layer's result as one function of the operand arrays the region finds. -/
abbrev G : S50000x16.Idx → Elt Ideal .f32 := Cheb.combine16 (V c main_v169) (V c main_v182) (V c main_v198) (V c main_v214) (V c main_v230) (V c main_v232) (V c main_v234) (V c main_v236) (V c main_v238) (V c main_v240) (V c main_arg9)

/-- Row `r` of window 0's block at point `t` is row `2000 · t + r` of its array. -/
theorem rd0 (t : Fin cfg2.N) (r : Fin 2000) (k : Fin 128) (p : Fin 50000) (hp : p.val = win2_11.index t (0 : Fin 2) * 2000 + r.val) :
    iblk2 V c 0 t (ix2 r k) = V c main_v169 (ix2 p k) := by
  show V c main_v169 (((cfg2.win 0).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_0.index t (0 : Fin 2) * 2000 + 1 * r.val = p.val; omega
  | ⟨1, _⟩ => show win2_0.index t (1 : Fin 2) * 128 + 1 * k.val = k.val; omega

/-- Row `r` of window 1's block at point `t` is row `2000 · t + r` of its array. -/
theorem rd1 (t : Fin cfg2.N) (r : Fin 2000) (k : Fin 128) (p : Fin 50000) (hp : p.val = win2_11.index t (0 : Fin 2) * 2000 + r.val) :
    iblk2 V c 1 t (ix2 r k) = V c main_v182 (ix2 p k) := by
  show V c main_v182 (((cfg2.win 1).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_1.index t (0 : Fin 2) * 2000 + 1 * r.val = p.val; omega
  | ⟨1, _⟩ => show win2_1.index t (1 : Fin 2) * 128 + 1 * k.val = k.val; omega

/-- Row `r` of window 2's block at point `t` is row `2000 · t + r` of its array. -/
theorem rd2 (t : Fin cfg2.N) (r : Fin 2000) (k : Fin 128) (p : Fin 50000) (hp : p.val = win2_11.index t (0 : Fin 2) * 2000 + r.val) :
    iblk2 V c 2 t (ix2 r k) = V c main_v198 (ix2 p k) := by
  show V c main_v198 (((cfg2.win 2).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_2.index t (0 : Fin 2) * 2000 + 1 * r.val = p.val; omega
  | ⟨1, _⟩ => show win2_2.index t (1 : Fin 2) * 128 + 1 * k.val = k.val; omega

/-- Row `r` of window 3's block at point `t` is row `2000 · t + r` of its array. -/
theorem rd3 (t : Fin cfg2.N) (r : Fin 2000) (k : Fin 128) (p : Fin 50000) (hp : p.val = win2_11.index t (0 : Fin 2) * 2000 + r.val) :
    iblk2 V c 3 t (ix2 r k) = V c main_v214 (ix2 p k) := by
  show V c main_v214 (((cfg2.win 3).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_3.index t (0 : Fin 2) * 2000 + 1 * r.val = p.val; omega
  | ⟨1, _⟩ => show win2_3.index t (1 : Fin 2) * 128 + 1 * k.val = k.val; omega

/-- Row `r` of window 4's block at point `t` is row `2000 · t + r` of its array. -/
theorem rd4 (t : Fin cfg2.N) (r : Fin 2000) (k : Fin 128) (p : Fin 50000) (hp : p.val = win2_11.index t (0 : Fin 2) * 2000 + r.val) :
    iblk2 V c 4 t (ix2 r k) = V c main_v230 (ix2 p k) := by
  show V c main_v230 (((cfg2.win 4).blk t).view.emb (ix2 r k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_4.index t (0 : Fin 2) * 2000 + 1 * r.val = p.val; omega
  | ⟨1, _⟩ => show win2_4.index t (1 : Fin 2) * 128 + 1 * k.val = k.val; omega

/-- Window 5's block is its whole weight matrix at every point. -/
theorem rd5 (t : Fin cfg2.N) (k : Fin 128) (j : Fin 16) : iblk2 V c 5 t (ix2 k j) = V c main_v232 (ix2 k j) := by
  show V c main_v232 (((cfg2.win 5).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_5.index t (0 : Fin 2) * 128 + 1 * k.val = k.val; omega
  | ⟨1, _⟩ => show win2_5.index t (1 : Fin 2) * 16 + 1 * j.val = j.val; omega

/-- Window 6's block is its whole weight matrix at every point. -/
theorem rd6 (t : Fin cfg2.N) (k : Fin 128) (j : Fin 16) : iblk2 V c 6 t (ix2 k j) = V c main_v234 (ix2 k j) := by
  show V c main_v234 (((cfg2.win 6).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_6.index t (0 : Fin 2) * 128 + 1 * k.val = k.val; omega
  | ⟨1, _⟩ => show win2_6.index t (1 : Fin 2) * 16 + 1 * j.val = j.val; omega

/-- Window 7's block is its whole weight matrix at every point. -/
theorem rd7 (t : Fin cfg2.N) (k : Fin 128) (j : Fin 16) : iblk2 V c 7 t (ix2 k j) = V c main_v236 (ix2 k j) := by
  show V c main_v236 (((cfg2.win 7).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_7.index t (0 : Fin 2) * 128 + 1 * k.val = k.val; omega
  | ⟨1, _⟩ => show win2_7.index t (1 : Fin 2) * 16 + 1 * j.val = j.val; omega

/-- Window 8's block is its whole weight matrix at every point. -/
theorem rd8 (t : Fin cfg2.N) (k : Fin 128) (j : Fin 16) : iblk2 V c 8 t (ix2 k j) = V c main_v238 (ix2 k j) := by
  show V c main_v238 (((cfg2.win 8).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_8.index t (0 : Fin 2) * 128 + 1 * k.val = k.val; omega
  | ⟨1, _⟩ => show win2_8.index t (1 : Fin 2) * 16 + 1 * j.val = j.val; omega

/-- Window 9's block is its whole weight matrix at every point. -/
theorem rd9 (t : Fin cfg2.N) (k : Fin 128) (j : Fin 16) : iblk2 V c 9 t (ix2 k j) = V c main_v240 (ix2 k j) := by
  show V c main_v240 (((cfg2.win 9).blk t).view.emb (ix2 k j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_9.index t (0 : Fin 2) * 128 + 1 * k.val = k.val; omega
  | ⟨1, _⟩ => show win2_9.index t (1 : Fin 2) * 16 + 1 * j.val = j.val; omega

/-- The bias window's block is the whole bias. -/
theorem rd10 (t : Fin cfg2.N) (j : Fin 16) : iblk2 V c 10 t (ix1 j) = V c main_arg9 (ix1 j) := by
  show V c main_arg9 (((cfg2.win 10).blk t).view.emb (ix1 j)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_10.index t (0 : Fin 1) * 16 + 1 * j.val = j.val; omega

/-- What point `t` writes back is block `t` of `G`. -/
theorem flushed_eq (t : Fin cfg2.N) :
    (dat2 V c).flushed 11 t = ((cfg2.win 11).blk t).view.read (Elt Ideal) (G V c) := by
  show (cfg2.win 11).cut (grid2.coords t) ((dat2 V c).after 11 t) = _
  rw [after2_11]
  unfold out2_11
  rw [View.canon_unit_zero hz2]
  simp only [View.ld_unit_zero (S := S2000x128) hz2, View.ld_unit_zero (S := S128x16) hz2, View.ld_unit_zero (S := S16) hz1]
  funext y
  obtain ⟨r, j, rfl⟩ : ∃ (r : Fin 2000) (j : Fin 16), y = ix2 r j := ⟨y 0, y 1, eq_ix2 y⟩
  obtain ⟨e0, e1, e2, e3, e4, e5, e6, e7, e8, e9, e10, e11, e12, e13, e14, e15, e16, e17, e18, e19, e20, e21, e22⟩ := idx_facts t
  have hr : r.val < 2000 := r.isLt
  let p : Fin 50000 := ⟨win2_11.index t (0 : Fin 2) * 2000 + r.val, by omega⟩
  have hi : ((cfg2.win 11).blk t).view.emb (ix2 r j) = ix2 p j := funext fun a => Fin.ext (by
    match a with
    | ⟨0, _⟩ => show win2_11.index t (0 : Fin 2) * 2000 + 1 * r.val = win2_11.index t (0 : Fin 2) * 2000 + r.val; omega
    | ⟨1, _⟩ => show win2_11.index t (1 : Fin 2) * 16 + 1 * j.val = j.val; omega)
  refine (Tiles.tile2_entry (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) r j).trans ?_
  show _ = G V c (((cfg2.win 11).blk t).view.emb (ix2 r j))
  rw [hi]
  unfold G
  rw [Cheb.output_entry]
  simp only [rd0 V c t r _ p rfl, rd1 V c t r _ p rfl, rd2 V c t r _ p rfl, rd3 V c t r _ p rfl, rd4 V c t r _ p rfl,
    rd5 V c t, rd6 V c t, rd7 V c t, rd8 V c t, rd9 V c t, rd10 V c t]

/-- An index of the array is in point `t`'s block iff each coordinate is in the block's range on its axis. -/
theorem mem_blk (t : Fin cfg2.N) (i : S50000x16.Idx) :
    i ∈ ((cfg2.win 11).blk t).view.set ↔ ∀ a : Fin 2, win2_11.index t a * S2000x16.size a ≤ (i a).val ∧ (i a).val < win2_11.index t a * S2000x16.size a + S2000x16.size a := by
  show i ∈ ((View.whole main_v241).slice (win2_11.rect t)).set ↔ _
  rw [View.set_slice_whole, Rect.mem_set_unit]
  exact Iff.rfl

/-- The row blocks cover the array: row `i` is in the block of point `i / 2000`. -/
theorem cover (i : S50000x16.Idx) : ∃ t : Fin cfg2.N, (cfg2.win 11).flush t = true ∧ i ∈ ((cfg2.win 11).blk t).view.set := by
  have hi0 : (i 0).val < 50000 := (i 0).isLt
  have hi1 : (i 1).val < 16 := (i 1).isLt
  obtain ⟨t, ht⟩ := idx_onto ⟨(i 0).val / 2000, by omega⟩
  have q0 : win2_11.index t (0 : Fin 2) = (i 0).val / 2000 := congrFun ht 0
  have q1 : win2_11.index t (1 : Fin 2) = 0 := congrFun ht 1
  refine ⟨t, flush2_11 t, ?_⟩
  rw [mem_blk]
  intro a
  match a with
  | ⟨0, _⟩ => show win2_11.index t (0 : Fin 2) * 2000 ≤ (i 0).val ∧ (i 0).val < win2_11.index t (0 : Fin 2) * 2000 + 2000; omega
  | ⟨1, _⟩ => show win2_11.index t (1 : Fin 2) * 16 ≤ (i 1).val ∧ (i 1).val < win2_11.index t (1 : Fin 2) * 16 + 16; omega

/-- The result array after the region's run. -/
theorem final : (dat2 V c).arrAt 11 cfg2.N = G V c :=
  (dat2 V c).arrAt_eq_of_cover 11 (G V c) (fun t _ => flushed_eq V c t) (cover)

end Cert.KernelIdeal.Layer3

end
-- ==== Proof.KValue.lean ====
/-
  The idealized kernel's program read from the launch memory to its result: at each boundary between a stretch of host operations
  and a combine kernel, the buffers the rest of the program still reads hold the forward pass's pieces of the argument arrays —
  the edge weights, the layer's five Chebyshev feature maps and weight matrices at a kernel's entry, the layer's result at its
  exit — so the result buffer ends at the forward pass.
-/
import proofs.«113539_j65317862637698_1_alg».proof.Proof.Gen.KernelIdeal.Frame
import proofs.«113539_j65317862637698_1_alg».proof.Proof.KHost
import proofs.«113539_j65317862637698_1_alg».proof.Proof.Layer1
import proofs.«113539_j65317862637698_1_alg».proof.Proof.Layer2
import proofs.«113539_j65317862637698_1_alg».proof.Proof.Layer3

set_option maxRecDepth 16384

noncomputable section

namespace Cert.KernelIdeal.KVal

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The edge weights of the launch's `src` and `dst`. -/
abbrev wE := Cheb.edgeWeight (m ((c : Thread nD τ).loc main_arg1)) (m ((c : Thread nD τ).loc main_arg2))
/-- The first hidden layer of the launch's arrays. -/
abbrev hid1 := Cheb.hidden (wE m c) (m ((c : Thread nD τ).loc main_arg1)) (m ((c : Thread nD τ).loc main_arg2)) (m ((c : Thread nD τ).loc main_arg0)) (m ((c : Thread nD τ).loc main_arg4)) (m ((c : Thread nD τ).loc main_arg5))
/-- The second hidden layer. -/
abbrev hid2 := Cheb.hidden (wE m c) (m ((c : Thread nD τ).loc main_arg1)) (m ((c : Thread nD τ).loc main_arg2)) (hid1 m c) (m ((c : Thread nD τ).loc main_arg6)) (m ((c : Thread nD τ).loc main_arg7))
/-- The output layer. -/
abbrev out3 := Cheb.output (wE m c) (m ((c : Thread nD τ).loc main_arg1)) (m ((c : Thread nD τ).loc main_arg2)) (hid2 m c) (m ((c : Thread nD τ).loc main_arg8)) (m ((c : Thread nD τ).loc main_arg9))

/-! ## At the first kernel's entry -/

theorem e1_w : W3 m ρ c (Proc.devRef .tc main_v25) = (wE m c) := HostVal.stageA_weight (W0 m ρ c)
theorem e1_t1 : W3 m ρ c (Proc.devRef .tc main_v38) = Cheb.cheb1 (wE m c) (m ((c : Thread nD τ).loc main_arg1)) (m ((c : Thread nD τ).loc main_arg2)) (m ((c : Thread nD τ).loc main_arg0)) := HostVal.stageA_t1 (W0 m ρ c)
theorem e1_t2 : W3 m ρ c (Proc.devRef .tc main_v54) = Cheb.cheb2 (wE m c) (m ((c : Thread nD τ).loc main_arg1)) (m ((c : Thread nD τ).loc main_arg2)) (m ((c : Thread nD τ).loc main_arg0)) := HostVal.stageA_t2 (W0 m ρ c)
theorem e1_t3 : W3 m ρ c (Proc.devRef .tc main_v70) = Cheb.cheb3 (wE m c) (m ((c : Thread nD τ).loc main_arg1)) (m ((c : Thread nD τ).loc main_arg2)) (m ((c : Thread nD τ).loc main_arg0)) := HostVal.stageA_t3 (W0 m ρ c)
theorem e1_t4 : W3 m ρ c (Proc.devRef .tc main_v86) = Cheb.cheb4 (wE m c) (m ((c : Thread nD τ).loc main_arg1)) (m ((c : Thread nD τ).loc main_arg2)) (m ((c : Thread nD τ).loc main_arg0)) := HostVal.stageA_t4 (W0 m ρ c)
theorem e1_u0 : W3 m ρ c (Proc.devRef .tc main_v88) = Cheb.w128_0 (m ((c : Thread nD τ).loc main_arg4)) := HostVal.stageA_u0 (W0 m ρ c)
theorem e1_u1 : W3 m ρ c (Proc.devRef .tc main_v90) = Cheb.w128_1 (m ((c : Thread nD τ).loc main_arg4)) := HostVal.stageA_u1 (W0 m ρ c)
theorem e1_u2 : W3 m ρ c (Proc.devRef .tc main_v92) = Cheb.w128_2 (m ((c : Thread nD τ).loc main_arg4)) := HostVal.stageA_u2 (W0 m ρ c)
theorem e1_u3 : W3 m ρ c (Proc.devRef .tc main_v94) = Cheb.w128_3 (m ((c : Thread nD τ).loc main_arg4)) := HostVal.stageA_u3 (W0 m ρ c)
theorem e1_u4 : W3 m ρ c (Proc.devRef .tc main_v96) = Cheb.w128_4 (m ((c : Thread nD τ).loc main_arg4)) := HostVal.stageA_u4 (W0 m ρ c)
theorem e1_a0 : W3 m ρ c (Proc.devRef .tc main_arg0) = (m ((c : Thread nD τ).loc main_arg0)) := HostVal.stageA_arg0 (W0 m ρ c)
theorem e1_a1 : W3 m ρ c (Proc.devRef .tc main_arg1) = (m ((c : Thread nD τ).loc main_arg1)) := HostVal.stageA_arg1 (W0 m ρ c)
theorem e1_a2 : W3 m ρ c (Proc.devRef .tc main_arg2) = (m ((c : Thread nD τ).loc main_arg2)) := HostVal.stageA_arg2 (W0 m ρ c)
theorem e1_a3 : W3 m ρ c (Proc.devRef .tc main_arg3) = (m ((c : Thread nD τ).loc main_arg3)) := HostVal.stageA_arg3 (W0 m ρ c)
theorem e1_a5 : W3 m ρ c (Proc.devRef .tc main_arg5) = (m ((c : Thread nD τ).loc main_arg5)) := HostVal.stageA_arg5 (W0 m ρ c)
theorem e1_a6 : W3 m ρ c (Proc.devRef .tc main_arg6) = (m ((c : Thread nD τ).loc main_arg6)) := HostVal.stageA_arg6 (W0 m ρ c)
theorem e1_a7 : W3 m ρ c (Proc.devRef .tc main_arg7) = (m ((c : Thread nD τ).loc main_arg7)) := HostVal.stageA_arg7 (W0 m ρ c)
theorem e1_a8 : W3 m ρ c (Proc.devRef .tc main_arg8) = (m ((c : Thread nD τ).loc main_arg8)) := HostVal.stageA_arg8 (W0 m ρ c)
theorem e1_a9 : W3 m ρ c (Proc.devRef .tc main_arg9) = (m ((c : Thread nD τ).loc main_arg9)) := HostVal.stageA_arg9 (W0 m ρ c)

/-! ## At the first kernel's exit -/

theorem x1_h : W4 m ρ c (Proc.devRef .tc main_v97) = (hid1 m c) := by
  refine ((W4_arr m ρ c 11).trans (Layer1.final (V3 m ρ) c)).trans ?_
  show Cheb.clamp (Cheb.combine128 (W3 m ρ c (Proc.devRef .tc main_arg0)) (W3 m ρ c (Proc.devRef .tc main_v38)) (W3 m ρ c (Proc.devRef .tc main_v54)) (W3 m ρ c (Proc.devRef .tc main_v70)) (W3 m ρ c (Proc.devRef .tc main_v86))
    (W3 m ρ c (Proc.devRef .tc main_v88)) (W3 m ρ c (Proc.devRef .tc main_v90)) (W3 m ρ c (Proc.devRef .tc main_v92)) (W3 m ρ c (Proc.devRef .tc main_v94)) (W3 m ρ c (Proc.devRef .tc main_v96)) (W3 m ρ c (Proc.devRef .tc main_arg5))) = _
  rw [e1_a0, e1_t1, e1_t2, e1_t3, e1_t4, e1_u0, e1_u1, e1_u2, e1_u3, e1_u4, e1_a5]
  rfl
theorem x1_w : W4 m ρ c (Proc.devRef .tc main_v25) = (wE m c) := (W4_of_ne m ρ c main_v25 (by decide)).trans (e1_w m ρ c)
theorem x1_a1 : W4 m ρ c (Proc.devRef .tc main_arg1) = (m ((c : Thread nD τ).loc main_arg1)) := (W4_of_ne m ρ c main_arg1 (by decide)).trans (e1_a1 m ρ c)
theorem x1_a2 : W4 m ρ c (Proc.devRef .tc main_arg2) = (m ((c : Thread nD τ).loc main_arg2)) := (W4_of_ne m ρ c main_arg2 (by decide)).trans (e1_a2 m ρ c)
theorem x1_a3 : W4 m ρ c (Proc.devRef .tc main_arg3) = (m ((c : Thread nD τ).loc main_arg3)) := (W4_of_ne m ρ c main_arg3 (by decide)).trans (e1_a3 m ρ c)
theorem x1_a6 : W4 m ρ c (Proc.devRef .tc main_arg6) = (m ((c : Thread nD τ).loc main_arg6)) := (W4_of_ne m ρ c main_arg6 (by decide)).trans (e1_a6 m ρ c)
theorem x1_a7 : W4 m ρ c (Proc.devRef .tc main_arg7) = (m ((c : Thread nD τ).loc main_arg7)) := (W4_of_ne m ρ c main_arg7 (by decide)).trans (e1_a7 m ρ c)
theorem x1_a8 : W4 m ρ c (Proc.devRef .tc main_arg8) = (m ((c : Thread nD τ).loc main_arg8)) := (W4_of_ne m ρ c main_arg8 (by decide)).trans (e1_a8 m ρ c)
theorem x1_a9 : W4 m ρ c (Proc.devRef .tc main_arg9) = (m ((c : Thread nD τ).loc main_arg9)) := (W4_of_ne m ρ c main_arg9 (by decide)).trans (e1_a9 m ρ c)

/-! ## At the second kernel's entry -/

theorem e2_t1 : W5 m ρ c (Proc.devRef .tc main_v110) = Cheb.cheb1 (wE m c) (m ((c : Thread nD τ).loc main_arg1)) (m ((c : Thread nD τ).loc main_arg2)) (hid1 m c) := by
  refine (HostVal.stageB_t1 (W4 m ρ c)).trans ?_
  rw [x1_w, x1_a1, x1_a2, x1_h]
theorem e2_t2 : W5 m ρ c (Proc.devRef .tc main_v126) = Cheb.cheb2 (wE m c) (m ((c : Thread nD τ).loc main_arg1)) (m ((c : Thread nD τ).loc main_arg2)) (hid1 m c) := by
  refine (HostVal.stageB_t2 (W4 m ρ c)).trans ?_
  rw [x1_w, x1_a1, x1_a2, x1_h]
theorem e2_t3 : W5 m ρ c (Proc.devRef .tc main_v142) = Cheb.cheb3 (wE m c) (m ((c : Thread nD τ).loc main_arg1)) (m ((c : Thread nD τ).loc main_arg2)) (hid1 m c) := by
  refine (HostVal.stageB_t3 (W4 m ρ c)).trans ?_
  rw [x1_w, x1_a1, x1_a2, x1_h]
theorem e2_t4 : W5 m ρ c (Proc.devRef .tc main_v158) = Cheb.cheb4 (wE m c) (m ((c : Thread nD τ).loc main_arg1)) (m ((c : Thread nD τ).loc main_arg2)) (hid1 m c) := by
  refine (HostVal.stageB_t4 (W4 m ρ c)).trans ?_
  rw [x1_w, x1_a1, x1_a2, x1_h]
theorem e2_u0 : W5 m ρ c (Proc.devRef .tc main_v160) = Cheb.w128_0 (m ((c : Thread nD τ).loc main_arg6)) := by
  refine (HostVal.stageB_u0 (W4 m ρ c)).trans ?_
  rw [x1_a6]
theorem e2_u1 : W5 m ρ c (Proc.devRef .tc main_v162) = Cheb.w128_1 (m ((c : Thread nD τ).loc main_arg6)) := by
  refine (HostVal.stageB_u1 (W4 m ρ c)).trans ?_
  rw [x1_a6]
theorem e2_u2 : W5 m ρ c (Proc.devRef .tc main_v164) = Cheb.w128_2 (m ((c : Thread nD τ).loc main_arg6)) := by
  refine (HostVal.stageB_u2 (W4 m ρ c)).trans ?_
  rw [x1_a6]
theorem e2_u3 : W5 m ρ c (Proc.devRef .tc main_v166) = Cheb.w128_3 (m ((c : Thread nD τ).loc main_arg6)) := by
  refine (HostVal.stageB_u3 (W4 m ρ c)).trans ?_
  rw [x1_a6]
theorem e2_u4 : W5 m ρ c (Proc.devRef .tc main_v168) = Cheb.w128_4 (m ((c : Thread nD τ).loc main_arg6)) := by
  refine (HostVal.stageB_u4 (W4 m ρ c)).trans ?_
  rw [x1_a6]
theorem e2_h : W5 m ρ c (Proc.devRef .tc main_v97) = (hid1 m c) := (HostVal.stageB_v97 (W4 m ρ c)).trans (x1_h m ρ c)
theorem e2_w : W5 m ρ c (Proc.devRef .tc main_v25) = (wE m c) := (HostVal.stageB_v25 (W4 m ρ c)).trans (x1_w m ρ c)
theorem e2_a1 : W5 m ρ c (Proc.devRef .tc main_arg1) = (m ((c : Thread nD τ).loc main_arg1)) := (HostVal.stageB_arg1 (W4 m ρ c)).trans (x1_a1 m ρ c)
theorem e2_a2 : W5 m ρ c (Proc.devRef .tc main_arg2) = (m ((c : Thread nD τ).loc main_arg2)) := (HostVal.stageB_arg2 (W4 m ρ c)).trans (x1_a2 m ρ c)
theorem e2_a3 : W5 m ρ c (Proc.devRef .tc main_arg3) = (m ((c : Thread nD τ).loc main_arg3)) := (HostVal.stageB_arg3 (W4 m ρ c)).trans (x1_a3 m ρ c)
theorem e2_a7 : W5 m ρ c (Proc.devRef .tc main_arg7) = (m ((c : Thread nD τ).loc main_arg7)) := (HostVal.stageB_arg7 (W4 m ρ c)).trans (x1_a7 m ρ c)
theorem e2_a8 : W5 m ρ c (Proc.devRef .tc main_arg8) = (m ((c : Thread nD τ).loc main_arg8)) := (HostVal.stageB_arg8 (W4 m ρ c)).trans (x1_a8 m ρ c)
theorem e2_a9 : W5 m ρ c (Proc.devRef .tc main_arg9) = (m ((c : Thread nD τ).loc main_arg9)) := (HostVal.stageB_arg9 (W4 m ρ c)).trans (x1_a9 m ρ c)

/-! ## At the second kernel's exit -/

theorem x2_h : W6 m ρ c (Proc.devRef .tc main_v169) = (hid2 m c) := by
  refine ((W6_arr m ρ c 11).trans (Layer2.final (V5 m ρ) c)).trans ?_
  show Cheb.clamp (Cheb.combine128 (W5 m ρ c (Proc.devRef .tc main_v97)) (W5 m ρ c (Proc.devRef .tc main_v110)) (W5 m ρ c (Proc.devRef .tc main_v126)) (W5 m ρ c (Proc.devRef .tc main_v142)) (W5 m ρ c (Proc.devRef .tc main_v158))
    (W5 m ρ c (Proc.devRef .tc main_v160)) (W5 m ρ c (Proc.devRef .tc main_v162)) (W5 m ρ c (Proc.devRef .tc main_v164)) (W5 m ρ c (Proc.devRef .tc main_v166)) (W5 m ρ c (Proc.devRef .tc main_v168)) (W5 m ρ c (Proc.devRef .tc main_arg7))) = _
  rw [e2_h, e2_t1, e2_t2, e2_t3, e2_t4, e2_u0, e2_u1, e2_u2, e2_u3, e2_u4, e2_a7]
  rfl
theorem x2_w : W6 m ρ c (Proc.devRef .tc main_v25) = (wE m c) := (W6_of_ne m ρ c main_v25 (by decide)).trans (e2_w m ρ c)
theorem x2_a1 : W6 m ρ c (Proc.devRef .tc main_arg1) = (m ((c : Thread nD τ).loc main_arg1)) := (W6_of_ne m ρ c main_arg1 (by decide)).trans (e2_a1 m ρ c)
theorem x2_a2 : W6 m ρ c (Proc.devRef .tc main_arg2) = (m ((c : Thread nD τ).loc main_arg2)) := (W6_of_ne m ρ c main_arg2 (by decide)).trans (e2_a2 m ρ c)
theorem x2_a3 : W6 m ρ c (Proc.devRef .tc main_arg3) = (m ((c : Thread nD τ).loc main_arg3)) := (W6_of_ne m ρ c main_arg3 (by decide)).trans (e2_a3 m ρ c)
theorem x2_a8 : W6 m ρ c (Proc.devRef .tc main_arg8) = (m ((c : Thread nD τ).loc main_arg8)) := (W6_of_ne m ρ c main_arg8 (by decide)).trans (e2_a8 m ρ c)
theorem x2_a9 : W6 m ρ c (Proc.devRef .tc main_arg9) = (m ((c : Thread nD τ).loc main_arg9)) := (W6_of_ne m ρ c main_arg9 (by decide)).trans (e2_a9 m ρ c)

/-! ## At the third kernel's entry -/

theorem e3_t1 : W7 m ρ c (Proc.devRef .tc main_v182) = Cheb.cheb1 (wE m c) (m ((c : Thread nD τ).loc main_arg1)) (m ((c : Thread nD τ).loc main_arg2)) (hid2 m c) := by
  refine (HostVal.stageC_t1 (W6 m ρ c)).trans ?_
  rw [x2_w, x2_a1, x2_a2, x2_h]
theorem e3_t2 : W7 m ρ c (Proc.devRef .tc main_v198) = Cheb.cheb2 (wE m c) (m ((c : Thread nD τ).loc main_arg1)) (m ((c : Thread nD τ).loc main_arg2)) (hid2 m c) := by
  refine (HostVal.stageC_t2 (W6 m ρ c)).trans ?_
  rw [x2_w, x2_a1, x2_a2, x2_h]
theorem e3_t3 : W7 m ρ c (Proc.devRef .tc main_v214) = Cheb.cheb3 (wE m c) (m ((c : Thread nD τ).loc main_arg1)) (m ((c : Thread nD τ).loc main_arg2)) (hid2 m c) := by
  refine (HostVal.stageC_t3 (W6 m ρ c)).trans ?_
  rw [x2_w, x2_a1, x2_a2, x2_h]
theorem e3_t4 : W7 m ρ c (Proc.devRef .tc main_v230) = Cheb.cheb4 (wE m c) (m ((c : Thread nD τ).loc main_arg1)) (m ((c : Thread nD τ).loc main_arg2)) (hid2 m c) := by
  refine (HostVal.stageC_t4 (W6 m ρ c)).trans ?_
  rw [x2_w, x2_a1, x2_a2, x2_h]
theorem e3_u0 : W7 m ρ c (Proc.devRef .tc main_v232) = Cheb.w16_0 (m ((c : Thread nD τ).loc main_arg8)) := by
  refine (HostVal.stageC_u0 (W6 m ρ c)).trans ?_
  rw [x2_a8]
theorem e3_u1 : W7 m ρ c (Proc.devRef .tc main_v234) = Cheb.w16_1 (m ((c : Thread nD τ).loc main_arg8)) := by
  refine (HostVal.stageC_u1 (W6 m ρ c)).trans ?_
  rw [x2_a8]
theorem e3_u2 : W7 m ρ c (Proc.devRef .tc main_v236) = Cheb.w16_2 (m ((c : Thread nD τ).loc main_arg8)) := by
  refine (HostVal.stageC_u2 (W6 m ρ c)).trans ?_
  rw [x2_a8]
theorem e3_u3 : W7 m ρ c (Proc.devRef .tc main_v238) = Cheb.w16_3 (m ((c : Thread nD τ).loc main_arg8)) := by
  refine (HostVal.stageC_u3 (W6 m ρ c)).trans ?_
  rw [x2_a8]
theorem e3_u4 : W7 m ρ c (Proc.devRef .tc main_v240) = Cheb.w16_4 (m ((c : Thread nD τ).loc main_arg8)) := by
  refine (HostVal.stageC_u4 (W6 m ρ c)).trans ?_
  rw [x2_a8]
theorem e3_h : W7 m ρ c (Proc.devRef .tc main_v169) = (hid2 m c) := (HostVal.stageC_v169 (W6 m ρ c)).trans (x2_h m ρ c)
theorem e3_a3 : W7 m ρ c (Proc.devRef .tc main_arg3) = (m ((c : Thread nD τ).loc main_arg3)) := (HostVal.stageC_arg3 (W6 m ρ c)).trans (x2_a3 m ρ c)
theorem e3_a9 : W7 m ρ c (Proc.devRef .tc main_arg9) = (m ((c : Thread nD τ).loc main_arg9)) := (HostVal.stageC_arg9 (W6 m ρ c)).trans (x2_a9 m ρ c)

/-! ## At the third kernel's exit, and the program's result -/

theorem x3_h : W8 m ρ c (Proc.devRef .tc main_v241) = (out3 m c) := by
  refine ((W8_arr m ρ c 11).trans (Layer3.final (V7 m ρ) c)).trans ?_
  show Cheb.combine16 (W7 m ρ c (Proc.devRef .tc main_v169)) (W7 m ρ c (Proc.devRef .tc main_v182)) (W7 m ρ c (Proc.devRef .tc main_v198)) (W7 m ρ c (Proc.devRef .tc main_v214)) (W7 m ρ c (Proc.devRef .tc main_v230))
    (W7 m ρ c (Proc.devRef .tc main_v232)) (W7 m ρ c (Proc.devRef .tc main_v234)) (W7 m ρ c (Proc.devRef .tc main_v236)) (W7 m ρ c (Proc.devRef .tc main_v238)) (W7 m ρ c (Proc.devRef .tc main_v240)) (W7 m ρ c (Proc.devRef .tc main_arg9)) = _
  rw [e3_h, e3_t1, e3_t2, e3_t3, e3_t4, e3_u0, e3_u1, e3_u2, e3_u3, e3_u4, e3_a9]
  rfl
theorem x3_a3 : W8 m ρ c (Proc.devRef .tc main_arg3) = (m ((c : Thread nD τ).loc main_arg3)) := (W8_of_ne m ρ c main_arg3 (by decide)).trans (e3_a3 m ρ c)

/-- The idealized kernel's result buffer after the run is the forward pass of the argument arrays. -/
theorem value : W10 m ρ c (Proc.devRef .tc main_v254)
    = Cheb.forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (HostVal.stageD_readout (W8 m ρ c)).trans ?_
  rw [x3_h, x3_a3]
  rfl

end Cert.KernelIdeal.KVal

end
-- ==== Proof.RHost.lean ====
/-
  The reference program, segment by segment, is the forward pass of `Cheb`: its first segment computes the edge weights and the
  first hidden layer, its second the second hidden layer, its third the output layer, its last the per-graph mean and the
  log-softmax. Each segment is read from ANY buffer contents `V` it starts from, so that the next segment's reading can take
  the previous segment's results as given arrays; the buffers a later segment still reads (the edge weights, the index arrays,
  the later layers' parameters) are not written in between.
-/
import proofs.«113539_j65317862637698_1_alg».proof.Proof.RefRun
import proofs.«113539_j65317862637698_1_alg».proof.Proof.Spec

set_option maxRecDepth 16384

noncomputable section

namespace Cert.ReferenceIdeal.RefVal

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F] (V : Valuation τ sig (Elt F))

/-! ## The first segment: the edge weights and the first hidden layer -/

set_option maxHeartbeats 4000000 in
theorem seg1_weight : after seg1 V (Proc.devRef .tc main_v25) = Cheb.edgeWeight (V (Proc.devRef .tc main_arg1)) (V (Proc.devRef .tc main_arg2)) := by
  after_results_simp <;> rfl

set_option maxHeartbeats 8000000 in
theorem seg1_hidden : after seg1 V (Proc.devRef .tc main_v109)
    = Cheb.hidden (Cheb.edgeWeight (V (Proc.devRef .tc main_arg1)) (V (Proc.devRef .tc main_arg2))) (V (Proc.devRef .tc main_arg1)) (V (Proc.devRef .tc main_arg2)) (V (Proc.devRef .tc main_arg0)) (V (Proc.devRef .tc main_arg4)) (V (Proc.devRef .tc main_arg5)) := by
  after_results_simp <;> rfl

theorem seg1_arg1 : after seg1 V (Proc.devRef .tc main_arg1) = V (Proc.devRef .tc main_arg1) := by after_results_simp
theorem seg1_arg2 : after seg1 V (Proc.devRef .tc main_arg2) = V (Proc.devRef .tc main_arg2) := by after_results_simp
theorem seg1_arg3 : after seg1 V (Proc.devRef .tc main_arg3) = V (Proc.devRef .tc main_arg3) := by after_results_simp
theorem seg1_arg6 : after seg1 V (Proc.devRef .tc main_arg6) = V (Proc.devRef .tc main_arg6) := by after_results_simp
theorem seg1_arg7 : after seg1 V (Proc.devRef .tc main_arg7) = V (Proc.devRef .tc main_arg7) := by after_results_simp
theorem seg1_arg8 : after seg1 V (Proc.devRef .tc main_arg8) = V (Proc.devRef .tc main_arg8) := by after_results_simp
theorem seg1_arg9 : after seg1 V (Proc.devRef .tc main_arg9) = V (Proc.devRef .tc main_arg9) := by after_results_simp

/-! ## The second segment: the second hidden layer, from the first layer's result and the edge weights -/

set_option maxHeartbeats 8000000 in
theorem seg2_hidden : after seg2 V (Proc.devRef .tc main_v193)
    = Cheb.hidden (V (Proc.devRef .tc main_v25)) (V (Proc.devRef .tc main_arg1)) (V (Proc.devRef .tc main_arg2)) (V (Proc.devRef .tc main_v109)) (V (Proc.devRef .tc main_arg6)) (V (Proc.devRef .tc main_arg7)) := by
  after_results_simp <;> rfl

theorem seg2_v25 : after seg2 V (Proc.devRef .tc main_v25) = V (Proc.devRef .tc main_v25) := by after_results_simp
theorem seg2_arg1 : after seg2 V (Proc.devRef .tc main_arg1) = V (Proc.devRef .tc main_arg1) := by after_results_simp
theorem seg2_arg2 : after seg2 V (Proc.devRef .tc main_arg2) = V (Proc.devRef .tc main_arg2) := by after_results_simp
theorem seg2_arg3 : after seg2 V (Proc.devRef .tc main_arg3) = V (Proc.devRef .tc main_arg3) := by after_results_simp
theorem seg2_arg8 : after seg2 V (Proc.devRef .tc main_arg8) = V (Proc.devRef .tc main_arg8) := by after_results_simp
theorem seg2_arg9 : after seg2 V (Proc.devRef .tc main_arg9) = V (Proc.devRef .tc main_arg9) := by after_results_simp

/-! ## The third segment: the output layer -/

set_option maxHeartbeats 8000000 in
theorem seg3_output : after seg3 V (Proc.devRef .tc main_v276)
    = Cheb.output (V (Proc.devRef .tc main_v25)) (V (Proc.devRef .tc main_arg1)) (V (Proc.devRef .tc main_arg2)) (V (Proc.devRef .tc main_v193)) (V (Proc.devRef .tc main_arg8)) (V (Proc.devRef .tc main_arg9)) := by
  after_results_simp <;> rfl

theorem seg3_arg3 : after seg3 V (Proc.devRef .tc main_arg3) = V (Proc.devRef .tc main_arg3) := by after_results_simp

/-! ## The last segment: the mean over each graph and the log-softmax -/

set_option maxHeartbeats 4000000 in
theorem seg4_readout : after seg4 V (Proc.devRef .tc main_v289) = Cheb.readout (V (Proc.devRef .tc main_v276)) (V (Proc.devRef .tc main_arg3)) := by
  after_results_simp <;> rfl

/-! ## The arguments are never written -/

theorem kept_arg0 : after seg4 (after seg3 (after seg2 (after seg1 V))) (Proc.devRef .tc main_arg0) = V (Proc.devRef .tc main_arg0) := by after_results_simp
theorem kept_arg1 : after seg4 (after seg3 (after seg2 (after seg1 V))) (Proc.devRef .tc main_arg1) = V (Proc.devRef .tc main_arg1) := by after_results_simp
theorem kept_arg2 : after seg4 (after seg3 (after seg2 (after seg1 V))) (Proc.devRef .tc main_arg2) = V (Proc.devRef .tc main_arg2) := by after_results_simp
theorem kept_arg3 : after seg4 (after seg3 (after seg2 (after seg1 V))) (Proc.devRef .tc main_arg3) = V (Proc.devRef .tc main_arg3) := by after_results_simp
theorem kept_arg4 : after seg4 (after seg3 (after seg2 (after seg1 V))) (Proc.devRef .tc main_arg4) = V (Proc.devRef .tc main_arg4) := by after_results_simp
theorem kept_arg5 : after seg4 (after seg3 (after seg2 (after seg1 V))) (Proc.devRef .tc main_arg5) = V (Proc.devRef .tc main_arg5) := by after_results_simp
theorem kept_arg6 : after seg4 (after seg3 (after seg2 (after seg1 V))) (Proc.devRef .tc main_arg6) = V (Proc.devRef .tc main_arg6) := by after_results_simp
theorem kept_arg7 : after seg4 (after seg3 (after seg2 (after seg1 V))) (Proc.devRef .tc main_arg7) = V (Proc.devRef .tc main_arg7) := by after_results_simp
theorem kept_arg8 : after seg4 (after seg3 (after seg2 (after seg1 V))) (Proc.devRef .tc main_arg8) = V (Proc.devRef .tc main_arg8) := by after_results_simp
theorem kept_arg9 : after seg4 (after seg3 (after seg2 (after seg1 V))) (Proc.devRef .tc main_arg9) = V (Proc.devRef .tc main_arg9) := by after_results_simp

/-! ## The whole program -/

/-- The reference's result buffer after its four segments, from any starting contents, is the forward pass of the argument arrays. -/
theorem result : after seg4 (after seg3 (after seg2 (after seg1 V))) (Proc.devRef .tc main_v289)
    = Cheb.forward (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [seg4_readout, seg3_output, seg3_arg3, seg2_hidden, seg2_v25, seg2_arg1, seg2_arg2, seg2_arg3, seg2_arg8, seg2_arg9,
    seg1_hidden, seg1_weight, seg1_arg1, seg1_arg2, seg1_arg3, seg1_arg6, seg1_arg7, seg1_arg8, seg1_arg9]
  rfl

end Cert.ReferenceIdeal.RefVal

end
-- ==== Proof.lean ====
/-
  A three-layer ChebNet: the kernel program runs each layer's sum of products `T0·W0 + … + T4·W4 + b` (clamped at zero in the
  first two layers) as a node-tiled kernel over five precomputed Chebyshev feature maps, with the graph propagation, the
  per-graph mean and the log-softmax as host operations around the three kernels; the reference computes the same forward pass
  with host operations only, adding each product as soon as its feature map exists.
  On the extended reals the two programs return the same array. Both apply the same host operations to the same arrays
  outside the layers' sums of products (`Cheb`, Proof/Spec.lean). Inside, a tile's entry `(r, j)` is
  `((((0 + Σ T0·W0) + Σ T1·W1) + …) + Σ T4·W4) + b j` over the tile's rows, where the reference's is the same sums without the
  leading zero over the whole array's rows; a tile's row `r` at grid point `t` is row `2000·t + r`, the rounding of the products'
  operands to bf16 is the identity, and `0 + a = a`. No step needs the inputs to be finite.
  The frames of the two kernel programs are the generated ones; the reference's is its run with the result dropped. The
  idealization rewrote no operation, so `preserves` asks nothing.
-/
import proofs.«113539_j65317862637698_1_alg».proof.Defs
import proofs.«113539_j65317862637698_1_alg».proof.Proof.Gen.Kernel
import proofs.«113539_j65317862637698_1_alg».proof.Proof.Gen.Kernel.Skeleton
import proofs.«113539_j65317862637698_1_alg».proof.Proof.Gen.Kernel.Launch
import proofs.«113539_j65317862637698_1_alg».proof.Proof.Gen.Kernel.Points
import proofs.«113539_j65317862637698_1_alg».proof.Proof.Gen.Kernel.Frame
import proofs.«113539_j65317862637698_1_alg».proof.Proof.Gen.KernelIdeal
import proofs.«113539_j65317862637698_1_alg».proof.Proof.Gen.KernelIdeal.Skeleton
import proofs.«113539_j65317862637698_1_alg».proof.Proof.Gen.KernelIdeal.Launch
import proofs.«113539_j65317862637698_1_alg».proof.Proof.Gen.KernelIdeal.Points
import proofs.«113539_j65317862637698_1_alg».proof.Proof.Gen.KernelIdeal.Frame
import proofs.«113539_j65317862637698_1_alg».proof.Proof.Gen.ReferenceIdeal
import proofs.«113539_j65317862637698_1_alg».proof.Proof.Gen.Pre_finite_inputs
import proofs.«113539_j65317862637698_1_alg».proof.Proof.KRun
import proofs.«113539_j65317862637698_1_alg».proof.Proof.KValue
import proofs.«113539_j65317862637698_1_alg».proof.Proof.RefRun
import proofs.«113539_j65317862637698_1_alg».proof.Proof.RHost
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run, its result dropped: no operation writes an argument. -/
theorem frame_ri : Cert.frame_ReferenceIdeal := fun m ρ _ =>
  (θ_run Cert.ReferenceIdeal.defs _ _).mono (fun r h c =>
    ⟨(h c _).trans (Cert.ReferenceIdeal.RefVal.kept_arg0 _), (h c _).trans (Cert.ReferenceIdeal.RefVal.kept_arg1 _),
     (h c _).trans (Cert.ReferenceIdeal.RefVal.kept_arg2 _), (h c _).trans (Cert.ReferenceIdeal.RefVal.kept_arg3 _),
     (h c _).trans (Cert.ReferenceIdeal.RefVal.kept_arg4 _), (h c _).trans (Cert.ReferenceIdeal.RefVal.kept_arg5 _),
     (h c _).trans (Cert.ReferenceIdeal.RefVal.kept_arg6 _), (h c _).trans (Cert.ReferenceIdeal.RefVal.kept_arg7 _),
     (h c _).trans (Cert.ReferenceIdeal.RefVal.kept_arg8 _), (h c _).trans (Cert.ReferenceIdeal.RefVal.kept_arg9 _)⟩)
    (Cert.ReferenceIdeal.RefRun.run (F := Ideal) m ρ)

theorem preserves : Cert.preserves_Kernel_KernelIdeal := trivial

/-- Both programs end with the forward pass of the (agreeing) argument arrays in their result buffers. -/
theorem algebraic : Cert.algebraic_KernelIdeal_ReferenceIdeal := by
  intro m ρ m' ρ' _ hagree
  refine ⟨fun c => Cheb.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.KVal.value m ρ c), (h c).2⟩)
      (Cert.KernelIdeal.KVal.run_value m ρ)
  · refine (θ_run Cert.ReferenceIdeal.defs _ _).mono (fun r h c => ?_) (Cert.ReferenceIdeal.RefRun.run (F := Ideal) m' ρ')
    obtain ⟨g0, g1, g2, g3, g4, g5, g6, g7, g8, g9⟩ := hagree c
    refine ⟨?_, (h c _).trans (Cert.ReferenceIdeal.RefVal.kept_arg0 _), (h c _).trans (Cert.ReferenceIdeal.RefVal.kept_arg1 _),
     (h c _).trans (Cert.ReferenceIdeal.RefVal.kept_arg2 _), (h c _).trans (Cert.ReferenceIdeal.RefVal.kept_arg3 _),
     (h c _).trans (Cert.ReferenceIdeal.RefVal.kept_arg4 _), (h c _).trans (Cert.ReferenceIdeal.RefVal.kept_arg5 _),
     (h c _).trans (Cert.ReferenceIdeal.RefVal.kept_arg6 _), (h c _).trans (Cert.ReferenceIdeal.RefVal.kept_arg7 _),
     (h c _).trans (Cert.ReferenceIdeal.RefVal.kept_arg8 _), (h c _).trans (Cert.ReferenceIdeal.RefVal.kept_arg9 _)⟩
    refine ((h c _).trans (Cert.ReferenceIdeal.RefVal.result _)).trans ?_
    have e0 : launchContents m' c (Proc.devRef .tc Cert.ReferenceIdeal.main_arg0) = (m ((c.tc : Thread Cert.KernelIdeal.nD Cert.KernelIdeal.τ).loc Cert.KernelIdeal.main_arg0)) := g0
    have e1 : launchContents m' c (Proc.devRef .tc Cert.ReferenceIdeal.main_arg1) = (m ((c.tc : Thread Cert.KernelIdeal.nD Cert.KernelIdeal.τ).loc Cert.KernelIdeal.main_arg1)) := g1
    have e2 : launchContents m' c (Proc.devRef .tc Cert.ReferenceIdeal.main_arg2) = (m ((c.tc : Thread Cert.KernelIdeal.nD Cert.KernelIdeal.τ).loc Cert.KernelIdeal.main_arg2)) := g2
    have e3 : launchContents m' c (Proc.devRef .tc Cert.ReferenceIdeal.main_arg3) = (m ((c.tc : Thread Cert.KernelIdeal.nD Cert.KernelIdeal.τ).loc Cert.KernelIdeal.main_arg3)) := g3
    have e4 : launchContents m' c (Proc.devRef .tc Cert.ReferenceIdeal.main_arg4) = (m ((c.tc : Thread Cert.KernelIdeal.nD Cert.KernelIdeal.τ).loc Cert.KernelIdeal.main_arg4)) := g4
    have e5 : launchContents m' c (Proc.devRef .tc Cert.ReferenceIdeal.main_arg5) = (m ((c.tc : Thread Cert.KernelIdeal.nD Cert.KernelIdeal.τ).loc Cert.KernelIdeal.main_arg5)) := g5
    have e6 : launchContents m' c (Proc.devRef .tc Cert.ReferenceIdeal.main_arg6) = (m ((c.tc : Thread Cert.KernelIdeal.nD Cert.KernelIdeal.τ).loc Cert.KernelIdeal.main_arg6)) := g6
    have e7 : launchContents m' c (Proc.devRef .tc Cert.ReferenceIdeal.main_arg7) = (m ((c.tc : Thread Cert.KernelIdeal.nD Cert.KernelIdeal.τ).loc Cert.KernelIdeal.main_arg7)) := g7
    have e8 : launchContents m' c (Proc.devRef .tc Cert.ReferenceIdeal.main_arg8) = (m ((c.tc : Thread Cert.KernelIdeal.nD Cert.KernelIdeal.τ).loc Cert.KernelIdeal.main_arg8)) := g8
    have e9 : launchContents m' c (Proc.devRef .tc Cert.ReferenceIdeal.main_arg9) = (m ((c.tc : Thread Cert.KernelIdeal.nD Cert.KernelIdeal.τ).loc Cert.KernelIdeal.main_arg9)) := g9
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
